-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x10000x256 : Shape := ⟨3, ![2, 10000, 256]⟩
abbrev S10000x10000 : Shape := ⟨2, ![10000, 10000]⟩
abbrev S256x256 : Shape := ⟨2, ![256, 256]⟩
abbrev S256 : Shape := ⟨1, ![256]⟩
abbrev S512x40 : Shape := ⟨2, ![512, 40]⟩
abbrev S40 : Shape := ⟨1, ![40]⟩
abbrev S_ : Shape := ⟨0, ![]⟩

class Facts : Prop where
  bcast_S_S2x10000x256 : S_.BroadcastsInDim S2x10000x256 (![] : Fin 0 → Fin S2x10000x256.rank)
  reducesTo_S2x10000x256_S_d0_1_2 : S2x10000x256.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S512x40 .f32) (main_arg5 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x40 .f32 := Host.absf main_arg4
  let main_cst_6 : FVec F S_ .f32 := constant S_ .f32 0x7F800000#32
  let main_v20 : FVec F S512x40 .f32 := broadcastInDim S512x40 ![] bcast_S_S512x40 main_cst_6
  let main_v21 : IVec S512x40 1 := cmpf .olt main_v19 main_v20
  let main_c_7 : IVec S_ 1 := constantI S_ 1 1#1
  let main_v22 : IVec S_ 1 := (fun x v => Host.reduce IntOp.andi x v reducesTo_S512x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S2x10000x256 .f32) (main_arg1 : FVec F S10000x10000 .f32) (main_arg2 : FVec F S256x256 .f32) (main_arg3 : FVec F S256 .f32) (main_arg4 : FVec F S512x40 .f32) (main_arg5 : FVec F S40 .f32) : IVec S_ 1 :=
  let main_v0 : FVec F S2x10000x256 .f32 := Host.absf main_arg0
  let main_cst : FVec F S_ .f32 := constant S_ .f32 0x7F800000#32
  let main_v1 : FVec F S2x10000x256 .f32 := broadcastInDim S2x10000x256 ![] bcast_S_S2x10000x256 main_cst
  let main_v2 : IVec S2x10000x256 1 := cmpf .olt main_v0 main_v1
  let main_c : IVec S_ 1 := constantI S_ 1 1#1
  let main_v3 : IVec S_ 1 := (fun x v => Host.reduce IntOp.andi x v reducesTo_S2x10000x256_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S2x10000x256 : Shape := ⟨3, ![2, 10000, 256]⟩
abbrev S10000x10000 : Shape := ⟨2, ![10000, 10000]⟩
abbrev S256x256 : Shape := ⟨2, ![256, 256]⟩
abbrev S256 : Shape := ⟨1, ![256]⟩
abbrev S512x40 : Shape := ⟨2, ![512, 40]⟩
abbrev S40 : Shape := ⟨1, ![40]⟩
abbrev S1x256 : Shape := ⟨2, ![1, 256]⟩
abbrev S2x256 : Shape := ⟨2, ![2, 256]⟩
abbrev S512 : Shape := ⟨1, ![512]⟩
abbrev S1x512 : Shape := ⟨2, ![1, 512]⟩
abbrev S1x40 : Shape := ⟨2, ![1, 40]⟩
abbrev S10000x512 : Shape := ⟨2, ![10000, 512]⟩
abbrev S2x2000x256 : Shape := ⟨3, ![2, 2000, 256]⟩
abbrev S2000x512 : Shape := ⟨2, ![2000, 512]⟩
abbrev S1x2000x256 : Shape := ⟨3, ![1, 2000, 256]⟩
abbrev S2000x256 : Shape := ⟨2, ![2000, 256]⟩
abbrev S10000x40 : Shape := ⟨2, ![10000, 40]⟩
abbrev S200x10000 : Shape := ⟨2, ![200, 10000]⟩
abbrev S200x512 : Shape := ⟨2, ![200, 512]⟩
abbrev S200x40 : Shape := ⟨2, ![200, 40]⟩

abbrev nBuf : Space → Nat
  | .hbm => 15
  | .vmem => 24
  | .smem => 0
  | _ => 0

abbrev bufTy : (tb : Table) → Fin (tcTables nBuf tb) → BufTy
  | .hbm, ⟨0, _⟩ => ⟨S2x10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S512x40, .f32⟩
  | .hbm, ⟨5, _⟩ => ⟨S40, .f32⟩
  | .hbm, ⟨6, _⟩ => ⟨S1x256, .f32⟩
  | .hbm, ⟨7, _⟩ => ⟨S2x256, .f32⟩
  | .hbm, ⟨8, _⟩ => ⟨S512, .f32⟩
  | .hbm, ⟨9, _⟩ => ⟨S1x512, .f32⟩
  | .hbm, ⟨10, _⟩ => ⟨S1x40, .f32⟩
  | .hbm, ⟨11, _⟩ => ⟨S10000x512, .bf16⟩
  | .hbm, ⟨12, _⟩ => ⟨S10000x40, .f32⟩
  | .hbm, ⟨13, _⟩ => ⟨S10000x10000, .bf16⟩
  | .hbm, ⟨14, _⟩ => ⟨S10000x40, .f32⟩
  | .local _ .vmem, ⟨0, _⟩ => ⟨S2x2000x256, .f32⟩
  | .local _ .vmem, ⟨1, _⟩ => ⟨S2x2000x256, .f32⟩
  | .local _ .vmem, ⟨2, _⟩ => ⟨S256x256, .f32⟩
  | .local _ .vmem, ⟨3, _⟩ => ⟨S2000x512, .bf16⟩
  | .local _ .vmem, ⟨4, _⟩ => ⟨S2000x512, .bf16⟩
  | .local _ .vmem, ⟨5, _⟩ => ⟨S200x10000, .f32⟩
  | .local _ .vmem, ⟨6, _⟩ => ⟨S200x10000, .f32⟩
  | .local _ .vmem, ⟨7, _⟩ => ⟨S10000x512, .bf16⟩
  | .local _ .vmem, ⟨8, _⟩ => ⟨S200x512, .bf16⟩
  | .local _ .vmem, ⟨9, _⟩ => ⟨S200x512, .bf16⟩
  | .local _ .vmem, ⟨10, _⟩ => ⟨S1x512, .f32⟩
  | .local _ .vmem, ⟨11, _⟩ => ⟨S512x40, .f32⟩
  | .local _ .vmem, ⟨12, _⟩ => ⟨S200x40, .f32⟩
  | .local _ .vmem, ⟨13, _⟩ => ⟨S200x40, .f32⟩
  | .local _ .vmem, ⟨14, _⟩ => ⟨S200x10000, .bf16⟩
  | .local _ .vmem, ⟨15, _⟩ => ⟨S200x10000, .bf16⟩
  | .local _ .vmem, ⟨16, _⟩ => ⟨S200x10000, .bf16⟩
  | .local _ .vmem, ⟨17, _⟩ => ⟨S200x10000, .bf16⟩
  | .local _ .vmem, ⟨18, _⟩ => ⟨S10000x40, .f32⟩
  | .local _ .vmem, ⟨19, _⟩ => ⟨S200x40, .f32⟩
  | .local _ .vmem, ⟨20, _⟩ => ⟨S200x40, .f32⟩
  | .local _ .vmem, ⟨21, _⟩ => ⟨S1x40, .f32⟩
  | .local _ .vmem, ⟨22, _⟩ => ⟨S200x40, .f32⟩
  | .local _ .vmem, ⟨23, _⟩ => ⟨S200x40, .f32⟩
  | _, _ => ⟨S2x10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S200x10000 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S200x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S256_S1x256 : S256.ShapeCasts S1x256
  bcast_S1x256_S2x256_0_1 : S1x256.BroadcastsInDim S2x256 (![0, 1] : Fin 2 → Fin S2x256.rank)
  shapeCasts_S2x256_S512 : S2x256.ShapeCasts S512
  shapeCasts_S512_S1x512 : S512.ShapeCasts S1x512
  shapeCasts_S40_S1x40 : S40.ShapeCasts S1x40
  inb_S2x2000x256_S1x2000x256_0_0_0 : ∀ a, (![0, 0, 0] : Fin 3 → Nat) a + S1x2000x256.size a ≤ S2x2000x256.size a
  h_S1x2000x256 : 0 < S1x2000x256.numel
  shapeCasts_S1x2000x256_S2000x256 : S1x2000x256.ShapeCasts S2000x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S2000x512_S2000x256_0_0 : ∀ a, (![0, 0] : Fin 2 → Nat) a + S2000x256.size a ≤ S2000x512.size a
  h_S2000x256 : 0 < S2000x256.numel
  packedbf16_S2000x512_S2000x256_0_0 : (Rect.unit (s := S2000x512) ![0, 0] S2000x256.size inb_S2000x512_S2000x256_0_0).PackedRows (EltTy.packing .bf16)
  inb_S2x2000x256_S1x2000x256_1_0_0 : ∀ a, (![1, 0, 0] : Fin 3 → Nat) a + S1x2000x256.size a ≤ S2x2000x256.size a
  inb_S2000x512_S2000x256_0_256 : ∀ a, (![0, 256] : Fin 2 → Nat) a + S2000x256.size a ≤ S2000x512.size a
  packedbf16_S2000x512_S2000x256_0_256 : (Rect.unit (s := S2000x512) ![0, 256] S2000x256.size inb_S2000x512_S2000x256_0_256).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S200x512_S200x512_0_0 : ∀ a, (![0, 0] : Fin 2 → Nat) a + S200x512.size a ≤ S200x512.size a
  h_S200x512 : 0 < S200x512.numel
  shapeCasts_S200x512_S200x512 : S200x512.ShapeCasts S200x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S512x40_S512x40_0_0 : ∀ a, (![0, 0] : Fin 2 → Nat) a + S512x40.size a ≤ S512x40.size a
  h_S512x40 : 0 < S512x40.numel
  inb_S200x40_S200x40_0_0 : ∀ a, (![0, 0] : Fin 2 → Nat) a + S200x40.size a ≤ S200x40.size a
  h_S200x40 : 0 < S200x40.numel
  shapeCasts_S200x10000_S200x10000 : S200x10000.ShapeCasts S200x10000
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  shapeCasts_S200x40_S200x40 : S200x40.ShapeCasts S200x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S200x40 : S1x40.Broadcasts S200x40
  dot_S2000x256_S256x256_S2000x256_1_0_0_1_n_n_wf : DotDims.WF S2000x256 S256x256 S2000x256 [1] [0] [0] [1] [] []
  dot_S200x10000_S10000x512_S200x512_1_0_0_1_n_n_wf : DotDims.WF S200x10000 S10000x512 S200x512 [1] [0] [0] [1] [] []
  dot_S200x512_S512x40_S200x40_1_0_0_1_n_n_wf : DotDims.WF S200x512 S512x40 S200x40 [1] [0] [0] [1] [] []
  dot_S200x10000_S10000x40_S200x40_1_0_0_1_n_n_wf : DotDims.WF S200x10000 S10000x40 S200x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2000x256.size a ≤ S2x10000x256.size a
  hwx0_0 : ∀ i : grid0.Coords, EltTy.bits .f32 = 32 ∨ (Rect.block (s := S2x10000x256) S2x2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .bf16 = 32 ∨ (Rect.block (s := S10000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x512.size a ≤ S10000x512.size a
  hwx1_2 : ∀ i : grid1.Coords, EltTy.bits .bf16 = 32 ∨ (Rect.block (s := S10000x512) S200x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x40.size a ≤ S512x40.size a
  hwx1_4 : ∀ i : grid1.Coords, EltTy.bits .f32 = 32 ∨ (Rect.block (s := S512x40) S512x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x40.size a ≤ S10000x40.size a
  hwx1_5 : ∀ i : grid1.Coords, EltTy.bits .f32 = 32 ∨ (Rect.block (s := S10000x40) S200x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x10000.size a ≤ S10000x10000.size a
  hwx1_6 : ∀ i : grid1.Coords, EltTy.bits .bf16 = 32 ∨ (Rect.block (s := S10000x10000) S200x10000.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .bf16 = 32 ∨ (Rect.block (s := S10000x10000) S200x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S10000x40.size a
  hwx2_1 : ∀ i : grid2.Coords, EltTy.bits .f32 = 32 ∨ (Rect.block (s := S10000x40) S10000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x40.size a ≤ S10000x40.size a
  hwx2_2 : ∀ i : grid2.Coords, EltTy.bits .f32 = 32 ∨ (Rect.block (s := S10000x40) S200x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x40.size a ≤ S10000x40.size a
  hwx2_4 : ∀ i : grid2.Coords, EltTy.bits .f32 = 32 ∨ (Rect.block (s := S10000x40) S200x40.size (cc2_transform_4 i) (hinb2_4 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x40_S200x40_1_0_0_1_n_n : DotDims S200x512 S512x40 S200x40 where
  lhsContracting := [1]
  rhsContracting := [0]
  lhsNonContracting := [0]
  rhsNonContracting := [1]
  lhsBatch := []
  rhsBatch := []
  wf := dot_S200x512_S512x40_S200x40_1_0_0_1_n_n_wf
def dot_S200x10000_S10000x40_S200x40_1_0_0_1_n_n : DotDims S200x10000 S10000x40 S200x40 where
  lhsContracting := [1]
  rhsContracting := [0]
  lhsNonContracting := [0]
  rhsNonContracting := [1]
  lhsBatch := []
  rhsBatch := []
  wf := dot_S200x10000_S10000x40_S200x40_1_0_0_1_n_n_wf

abbrev win0_0 : Pipeline.Window sig grid0 :=
  Pipeline.Window.ofSpec (Memref.whole main_arg0) S2x2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S200x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S512x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6_0) S200x40.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_1) S200x10000.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v6_1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_0) S10000x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6_0) S200x40.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S200x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x10000x256 : Shape := ⟨3, ![2, 10000, 256]⟩
abbrev S10000x10000 : Shape := ⟨2, ![10000, 10000]⟩
abbrev S256x256 : Shape := ⟨2, ![256, 256]⟩
abbrev S256 : Shape := ⟨1, ![256]⟩
abbrev S512x40 : Shape := ⟨2, ![512, 40]⟩
abbrev S40 : Shape := ⟨1, ![40]⟩
abbrev S1x10000x256 : Shape := ⟨3, ![1, 10000, 256]⟩
abbrev S10000x256 : Shape := ⟨2, ![10000, 256]⟩
abbrev S_ : Shape := ⟨0, ![]⟩
abbrev S1x256 : Shape := ⟨2, ![1, 256]⟩
abbrev S10000x512 : Shape := ⟨2, ![10000, 512]⟩
abbrev S10000x40 : Shape := ⟨2, ![10000, 40]⟩
abbrev S1x40 : Shape := ⟨2, ![1, 40]⟩

abbrev nBuf : Space → Nat
  | .hbm => 44
  | .vmem => 0
  | .smem => 0
  | _ => 0

abbrev bufTy : (tb : Table) → Fin (tcTables nBuf tb) → BufTy
  | .hbm, ⟨0, _⟩ => ⟨S2x10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S512x40, .f32⟩
  | .hbm, ⟨5, _⟩ => ⟨S40, .f32⟩
  | .hbm, ⟨6, _⟩ => ⟨S1x10000x256, .f32⟩
  | .hbm, ⟨7, _⟩ => ⟨S10000x256, .f32⟩
  | .hbm, ⟨8, _⟩ => ⟨S_, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S10000x256, .f32⟩
  | .hbm, ⟨13, _⟩ => ⟨S10000x256, .f32⟩
  | .hbm, ⟨14, _⟩ => ⟨S1x256, .f32⟩
  | .hbm, ⟨15, _⟩ => ⟨S10000x256, .f32⟩
  | .hbm, ⟨16, _⟩ => ⟨S10000x256, .f32⟩
  | .hbm, ⟨17, _⟩ => ⟨S_, .f32⟩
  | .hbm, ⟨18, _⟩ => ⟨S10000x256, .f32⟩
  | .hbm, ⟨19, _⟩ => ⟨S10000x256, .f32⟩
  | .hbm, ⟨20, _⟩ => ⟨S1x10000x256, .f32⟩
  | .hbm, ⟨21, _⟩ => ⟨S10000x256, .f32⟩
  | .hbm, ⟨22, _⟩ => ⟨S_, .f32⟩
  | .hbm, ⟨23, _⟩ => ⟨S10000x256, .f32⟩
  | .hbm, ⟨24, _⟩ => ⟨S10000x256, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S1x256, .f32⟩
  | .hbm, ⟨29, _⟩ => ⟨S10000x256, .f32⟩
  | .hbm, ⟨30, _⟩ => ⟨S10000x256, .f32⟩
  | .hbm, ⟨31, _⟩ => ⟨S_, .f32⟩
  | .hbm, ⟨32, _⟩ => ⟨S10000x256, .f32⟩
  | .hbm, ⟨33, _⟩ => ⟨S10000x256, .f32⟩
  | .hbm, ⟨34, _⟩ => ⟨S10000x512, .f32⟩
  | .hbm, ⟨35, _⟩ => ⟨S_, .f32⟩
  | .hbm, ⟨36, _⟩ => ⟨S10000x512, .f32⟩
  | .hbm, ⟨37, _⟩ => ⟨S10000x512, .f32⟩
  | .hbm, ⟨38, _⟩ => ⟨S10000x512, .f32⟩
  | .hbm, ⟨39, _⟩ => ⟨S10000x512, .f32⟩
  | .hbm, ⟨40, _⟩ => ⟨S10000x40, .f32⟩
  | .hbm, ⟨41, _⟩ => ⟨S1x40, .f32⟩
  | .hbm, ⟨42, _⟩ => ⟨S10000x40, .f32⟩
  | .hbm, ⟨43, _⟩ => ⟨S10000x40, .f32⟩
  | _, _ => ⟨S2x10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x10000x256_S1x10000x256_0_0_0 : S2x10000x256.Slices ![0, 0, 0] S1x10000x256
  shapeCasts_S1x10000x256_S10000x256 : S1x10000x256.ShapeCasts S10000x256
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  slices_S2x10000x256_S1x10000x256_1_0_0 : S2x10000x256.Slices ![1, 0, 0] S1x10000x256
  concatenates_S10000x256_S10000x256_S10000x512_d1 : Shape.Concatenates [S10000x256, S10000x256] S10000x512 1
  bcast_S_S10000x512 : S_.BroadcastsInDim S10000x512 (![] : Fin 0 → Fin S10000x512.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []
  dot_S10000x10000_S10000x512_S10000x512_1_0_0_1_n_n_wf : DotDims.WF S10000x10000 S10000x512 S10000x512 [1] [0] [0] [1] [] []
  dot_S10000x512_S512x40_S10000x40_1_0_0_1_n_n_wf : DotDims.WF S10000x512 S512x40 S10000x40 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x40_S10000x40_1_0_0_1_n_n : DotDims S10000x512 S512x40 S10000x40 where
  lhsContracting := [1]
  rhsContracting := [0]
  lhsNonContracting := [0]
  rhsNonContracting := [1]
  lhsBatch := []
  rhsBatch := []
  wf := dot_S10000x512_S512x40_S10000x40_1_0_0_1_n_n_wf

class Facts : Prop extends Facts₀ where

variable [Facts]
-- ==== Proof.KBody0.lean ====
/-
  The first kernel region at a grid point: the two inputs' row blocks are multiplied by the whole weight matrix and
  stored side by side, as the left and the right half of the output block.
-/
import proofs.«161026_g21131239096597_cont_8to1_6_7_alg».proof.Proof.Gen.Kernel.Launch
import proofs.«161026_g21131239096597_cont_8to1_6_7_alg».proof.Proof.Gen.Kernel.Skeleton
import proofs.«161026_g21131239096597_cont_8to1_6_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes. -/
abbrev rx0 : Rect S2x2000x256 := Rect.unit (s := S2x2000x256) ![0, 0, 0] S1x2000x256.size inb_S2x2000x256_S1x2000x256_0_0_0
abbrev rx1 : Rect S2x2000x256 := Rect.unit (s := S2x2000x256) ![1, 0, 0] S1x2000x256.size inb_S2x2000x256_S1x2000x256_1_0_0
abbrev rw1 : Rect S256x256 := Rect.unit (s := S256x256) ![0, 0] S256x256.size inb_S256x256_S256x256_0_0
abbrev ro0 : Rect S2000x512 := Rect.unit (s := S2000x512) ![0, 0] S2000x256.size inb_S2000x512_S2000x256_0_0
abbrev ro1 : Rect S2000x512 := Rect.unit (s := S2000x512) ![0, 256] S2000x256.size inb_S2000x512_S2000x256_0_256

/-- The output block after the body: the two halves, the later store first. -/
def out0_2 (x0 : Vec F S2x2000x256 .f32) (x1 : Vec F S256x256 .f32) : Vec F S2000x512 .bf16 :=
  View.canon [⟨ro1, k0_pay2 (View.ld x0 rx1) (View.ld x1 rw1)⟩, ⟨ro0, k0_pay1 (View.ld x0 rx0) (View.ld x1 rw1)⟩]

/-- The two halves cover the block. -/
theorem cover0_2 (p0 p1 : Vec F S2000x256 .bf16) (y : S2000x512.Idx) :
    ∃ pc ∈ ([⟨ro1, p1⟩, ⟨ro0, p0⟩] : List (View.Piece (Elt F) S2000x512 .bf16)), y ∈ pc.1.set :=
  View.cover_of_tiled [⟨ro1, p1⟩, ⟨ro0, p0⟩] S2000x256.size (by rfl) y

set_option maxHeartbeats 1000000 in
/-- The body on whole staging buffers: the inputs stay, the output ends at the two stored halves. -/
theorem sound_kernel0 (c : Dev nD) (E : Set ℕ) (i : grid0.Coords) (arg1 : Memref sig .tc .vmem S2x2000x256 .f32) (harg1 : arg1.IsWhole)
    (arg2 : Memref sig .tc .vmem S256x256 .f32) (harg2 : arg2.IsWhole) (arg3 : Memref sig .tc .vmem S2000x512 .bf16) (harg3 : arg3.IsWhole)
    (x0 : Vec F S2x2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__v_body i arg1 harg1 arg2 harg2 arg3 harg3) K := by
  simp only [cc0__v_body_eq_skeleton]; unfold cc0__v_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-- The region's proof data on a core: the arrays as the region finds them; after the body each input's buffer at its
    block and the output's at the two stored halves; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at a point, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The second kernel region at a grid point: a row stripe of the graph matrix times the whole projected features, plus
  the stripe's own rows of them, plus the bias, clipped below at zero, then projected through the second weight
  matrix; the stripe itself is also written out, unchanged in value.
-/
import proofs.«161026_g21131239096597_cont_8to1_6_7_alg».proof.Proof.Gen.Kernel.Launch
import proofs.«161026_g21131239096597_cont_8to1_6_7_alg».proof.Proof.Gen.Kernel.Skeleton
import proofs.«161026_g21131239096597_cont_8to1_6_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes. -/
abbrev r1_S200x10000 : Rect S200x10000 := Rect.unit (s := S200x10000) ![0, 0] S200x10000.size inb_S200x10000_S200x10000_0_0
abbrev r1_S10000x512 : Rect S10000x512 := Rect.unit (s := S10000x512) ![0, 0] S10000x512.size inb_S10000x512_S10000x512_0_0
abbrev r1_S200x512 : Rect S200x512 := Rect.unit (s := S200x512) ![0, 0] S200x512.size inb_S200x512_S200x512_0_0
abbrev r1_S1x512 : Rect S1x512 := Rect.unit (s := S1x512) ![0, 0] S1x512.size inb_S1x512_S1x512_0_0
abbrev r1_S512x40 : Rect S512x40 := Rect.unit (s := S512x40) ![0, 0] S512x40.size inb_S512x40_S512x40_0_0
abbrev r1_S200x40 : Rect S200x40 := Rect.unit (s := S200x40) ![0, 0] S200x40.size inb_S200x40_S200x40_0_0

/-- Output window 5's block after the body: its one store. -/
def out1_5 (x0 : Vec F S200x10000 .f32) (x1 : Vec F S10000x512 .bf16) (x2 : Vec F S200x512 .bf16) (x3 : Vec F S1x512 .f32) (x4 : Vec F S512x40 .f32) : Vec F S200x40 .f32 :=
  View.canon [⟨r1_S200x40, k1_pay2 (View.ld x0 r1_S200x10000) (View.ld x1 r1_S10000x512) (View.ld x2 r1_S200x512) (View.ld x3 r1_S1x512) (View.ld x4 r1_S512x40)⟩]
theorem cover1_5 (p0 : Vec F S200x40 .f32) (y : S200x40.Idx) :
    ∃ pc ∈ ([⟨r1_S200x40, p0⟩] : List (View.Piece (Elt F) S200x40 .f32)), y ∈ pc.1.set :=
  View.cover_of_tiled [⟨r1_S200x40, p0⟩] S200x40.size (by rfl) y

/-- Output window 6's block after the body: its one store. -/
def out1_6 (x0 : Vec F S200x10000 .f32) : Vec F S200x10000 .bf16 :=
  View.canon [⟨r1_S200x10000, k1_pay1 (View.ld x0 r1_S200x10000)⟩]
theorem cover1_6 (p0 : Vec F S200x10000 .bf16) (y : S200x10000.Idx) :
    ∃ pc ∈ ([⟨r1_S200x10000, p0⟩] : List (View.Piece (Elt F) S200x10000 .bf16)), y ∈ pc.1.set :=
  View.cover_of_tiled [⟨r1_S200x10000, p0⟩] S200x10000.size (by rfl) y

set_option maxHeartbeats 1000000 in
/-- The body on whole staging buffers: the inputs stay, each output ends at its one store. -/
theorem sound_kernel1 (c : Dev nD) (E : Set ℕ) (i : grid1.Coords) (arg1 : Memref sig .tc .vmem S200x10000 .f32) (harg1 : arg1.IsWhole) (arg2 : Memref sig .tc .vmem S10000x512 .bf16) (harg2 : arg2.IsWhole) (arg3 : Memref sig .tc .vmem S200x512 .bf16) (harg3 : arg3.IsWhole) (arg4 : Memref sig .tc .vmem S1x512 .f32) (harg4 : arg4.IsWhole) (arg5 : Memref sig .tc .vmem S512x40 .f32) (harg5 : arg5.IsWhole) (arg6 : Memref sig .tc .vmem S200x40 .f32) (harg6 : arg6.IsWhole) (arg7 : Memref sig .tc .vmem S200x10000 .bf16) (harg7 : arg7.IsWhole)
    (x0 : Vec F S200x10000 .f32) (x1 : Vec F S10000x512 .bf16) (x2 : Vec F S200x512 .bf16) (x3 : Vec F S1x512 .f32) (x4 : Vec F S512x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0)) -∗ K ⟨⟩))
      ⊢ wp frame (wpE (defs₀ (F := F)) Variants.none c none) E (cc1__uni_body i arg1 harg1 arg2 harg2 arg3 harg3 arg4 harg4 arg5 harg5 arg6 harg6 arg7 harg7) K := by
  simp only [cc1__uni_body_eq_skeleton]; unfold cc1__uni_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  · iexists _; isplitr
    swap; · iexact H6
    ipureintro
    exact View.read_writes_eq_canon _ _ _ (cover1_6 _)

/-- The region's proof data on a core: the arrays as the region finds them; after the body each input's buffer at its
    block and each output's at its store; nothing owed; the shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]
theorem q_eq1 (c : Dev nD) (w : Fin cfg1.W) : (dat1 V q c).q w = q w := by
  dsimp only [dat1]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V q c).after 6 t = out1_6 (iblk1 V c 0 t) := by dsimp only [dat1]
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d

/-- What the body is called with at a point, and what it returns. -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d)))
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t))

theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V q c) (defs₀ (F := F)) Variants.none () Set.univ := fun t => by
  rw [bigSep_W1, bigSep_W1]
  exact sound_body1 V q c t

end Cert.Kernel.Hand

end
-- ==== Proof.KShare1.lean ====
/-
  Region two reads the projected features through two windows. Entering the region the buffer, held whole, is split
  into the two halves of the full share, one per window; leaving it the halves are joined again.
-/
import proofs.«161026_g21131239096597_cont_8to1_6_7_alg».proof.Proof.Gen.Kernel.Launch
import proofs.«161026_g21131239096597_cont_8to1_6_7_alg».proof.Proof.Gen.Kernel.Skeleton
import proofs.«161026_g21131239096597_cont_8to1_6_7_alg».proof.Proof.Gen.Kernel.Points
import proofs.«161026_g21131239096597_cont_8to1_6_7_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The shares of region two's windows: the projected features are read through two windows, each at one half. -/
def q1 : Fin cfg1.W → PosShare TreeShare := fun w => match w with
  | ⟨1, _⟩ => fullShare.left | ⟨2, _⟩ => fullShare.right | _ => fullShare

theorem split1 (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) :=
  Pipeline.unscopedBufs_split₀ (cfgs := cfgs) 1 (by decide) c Vc

/-- The distinct buffers behind the region's windows. -/
theorem arrBufs1_eq (c : Dev nD) (Vc : (b : Ref sig .tc) → Buf (Elt F) ((c : Thread nD τ).loc b)) :
    (Pipeline.arrBufs spec1 c Vc : sProp 𝕄)
      = iprop((((c : Thread nD τ).loc main_arg1) ↦{fullShare} Vc main_arg1) ∗ (((c : Thread nD τ).loc main_v5) ↦{fullShare} Vc main_v5) ∗ (((c : Thread nD τ).loc main_v3) ↦{fullShare} Vc main_v3) ∗ (((c : Thread nD τ).loc main_arg4) ↦{fullShare} Vc main_arg4) ∗ (((c : Thread nD τ).loc main_v6_0) ↦{fullShare} Vc main_v6_0) ∗ (((c : Thread nD τ).loc main_v6_1) ↦{fullShare} Vc main_v6_1)) := by
  unfold Pipeline.arrBufs
  exact bigSep_eq_bigSepL_of_eq [main_arg1, main_v5, main_v3, main_arg4, main_v6_0, main_v6_1] (by decide) (by decide) _

/-- The windows' arrays one by one, each at its share. -/
theorem arrays1_eq (c : Dev nD) (G : (w : Fin cfg1.W) → Buf (Elt F) ((cfg1.win w).arr.view.loc (c : Thread nD τ))) :
    ((dat1 V q1 c).arrays G : sProp 𝕄)
      = iprop((((c : Thread nD τ).loc main_arg1) ↦{fullShare} G 0) ∗ (((c : Thread nD τ).loc main_v5) ↦{fullShare.left} G 1) ∗ (((c : Thread nD τ).loc main_v5) ↦{fullShare.right} G 2) ∗ (((c : Thread nD τ).loc main_v3) ↦{fullShare} G 3) ∗ (((c : Thread nD τ).loc main_arg4) ↦{fullShare} G 4) ∗ (((c : Thread nD τ).loc main_v6_0) ↦{fullShare} G 5) ∗ (((c : Thread nD τ).loc main_v6_1) ↦{fullShare} G 6)) := by
  unfold Dat.arrays
  rw [bigSep_W1, (arr_whole1 0).set_eq_univ, (arr_whole1 1).set_eq_univ, (arr_whole1 3).set_eq_univ, (arr_whole1 4).set_eq_univ, (arr_whole1 5).set_eq_univ, (arr_whole1 6).set_eq_univ]
  rfl

/-- Entering the region: the twice-read buffer is split into its two halves. -/
theorem entry1 (c : Dev nD) :
    (unscopedBufs c (V c) : sProp 𝕄) ⊢ iprop((dat1 V q1 c).arrays (fun w => (dat1 V q1 c).arrAt w 0) ∗ Pipeline.unscopedRest spec1 c (V c)) := by
  rw [split1, arrBufs1_eq, arrays1_eq]
  iintro ⟨⟨H0, H12, H3, H4, H5, H6⟩, Hrest⟩
  ihave H' := (pointsTo_share (PosShare.mem_left_op_right fullShare)).1 $$ H12
  icases H' with ⟨H1, H2⟩
  isplitr [Hrest]
  · isplitl [H0]; · iexact H0
    isplitl [H1]; · iexact H1
    isplitl [H2]; · iexact H2
    isplitl [H3]; · iexact H3
    isplitl [H4]; · iexact H4
    isplitl [H5]; · iexact H5
    iexact H6
  iexact Hrest

/-- Leaving the region: the two halves are joined again, and the buffers stand at any valuation that has the
    windows' arrays at the given contents and agrees with the entry valuation elsewhere. -/
theorem exit1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_arg1) (h1 : G 1 = V' main_v5) (h2 : G 2 = V' main_v5) (h3 : G 3 = V' main_v3) (h4 : G 4 = V' main_arg4) (h5 : G 5 = V' main_v6_0) (h6 : G 6 = V' main_v6_1)
    (hrest : ∀ b, b ∉ Finset.univ.image (Pipeline.arrRef spec1) → V' b = V c b) :
    iprop((dat1 V q1 c).arrays G ∗ Pipeline.unscopedRest spec1 c (V c)) ⊢ (unscopedBufs c V' : sProp 𝕄) := by
  have hr : (Pipeline.unscopedRest spec1 c (V c) : sProp 𝕄) = Pipeline.unscopedRest spec1 c V' := by
    unfold Pipeline.unscopedRest
    exact bigSep_congr fun b hb => by rw [hrest b (Finset.mem_sdiff.mp hb).2]
  rw [split1 c V', arrBufs1_eq, arrays1_eq, h0, h1, h2, h3, h4, h5, h6, hr]
  iintro ⟨⟨H0, H1, H2, H3, H4, H5, H6⟩, Hrest⟩
  isplitr [Hrest]
  · isplitl [H0]; · iexact H0
    isplitl [H1 H2]
    · iapply (pointsTo_share (PosShare.mem_left_op_right fullShare)).2
      isplitl [H1]; · iexact H1
      iexact H2
    isplitl [H3]; · iexact H3
    isplitl [H4]; · iexact H4
    isplitl [H5]; · iexact H5
    iexact H6
  iexact Hrest

end Cert.Kernel.Hand

end
-- ==== Proof.KBody2.lean ====
/-
  The third kernel region at a grid point: a row stripe of the graph matrix times the whole projected hidden layer,
  plus the stripe's own rows of it, plus the bias.
-/
import proofs.«161026_g21131239096597_cont_8to1_6_7_alg».proof.Proof.Gen.Kernel.Launch
import proofs.«161026_g21131239096597_cont_8to1_6_7_alg».proof.Proof.Gen.Kernel.Skeleton
import proofs.«161026_g21131239096597_cont_8to1_6_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes. -/
abbrev r2_S200x10000 : Rect S200x10000 := Rect.unit (s := S200x10000) ![0, 0] S200x10000.size inb_S200x10000_S200x10000_0_0
abbrev r2_S10000x40 : Rect S10000x40 := Rect.unit (s := S10000x40) ![0, 0] S10000x40.size inb_S10000x40_S10000x40_0_0
abbrev r2_S200x40 : Rect S200x40 := Rect.unit (s := S200x40) ![0, 0] S200x40.size inb_S200x40_S200x40_0_0
abbrev r2_S1x40 : Rect S1x40 := Rect.unit (s := S1x40) ![0, 0] S1x40.size inb_S1x40_S1x40_0_0

/-- Output window 4's block after the body: its one store. -/
def out2_4 (x0 : Vec F S200x10000 .bf16) (x1 : Vec F S10000x40 .f32) (x2 : Vec F S200x40 .f32) (x3 : Vec F S1x40 .f32) : Vec F S200x40 .f32 :=
  View.canon [⟨r2_S200x40, k2_pay1 (View.ld x0 r2_S200x10000) (View.ld x1 r2_S10000x40) (View.ld x2 r2_S200x40) (View.ld x3 r2_S1x40)⟩]
theorem cover2_4 (p0 : Vec F S200x40 .f32) (y : S200x40.Idx) :
    ∃ pc ∈ ([⟨r2_S200x40, p0⟩] : List (View.Piece (Elt F) S200x40 .f32)), y ∈ pc.1.set :=
  View.cover_of_tiled [⟨r2_S200x40, p0⟩] S200x40.size (by rfl) y

set_option maxHeartbeats 1000000 in
/-- The body on whole staging buffers: the inputs stay, each output ends at its one store. -/
theorem sound_kernel2 (c : Dev nD) (E : Set ℕ) (i : grid2.Coords) (arg1 : Memref sig .tc .vmem S200x10000 .bf16) (harg1 : arg1.IsWhole) (arg2 : Memref sig .tc .vmem S10000x40 .f32) (harg2 : arg2.IsWhole) (arg3 : Memref sig .tc .vmem S200x40 .f32) (harg3 : arg3.IsWhole) (arg4 : Memref sig .tc .vmem S1x40 .f32) (harg4 : arg4.IsWhole) (arg5 : Memref sig .tc .vmem S200x40 .f32) (harg5 : arg5.IsWhole)
    (x0 : Vec F S200x10000 .bf16) (x1 : Vec F S10000x40 .f32) (x2 : Vec F S200x40 .f32) (x3 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__out_body i arg1 harg1 arg2 harg2 arg3 harg3 arg4 harg4 arg5 harg5) K := by
  simp only [cc2__out_body_eq_skeleton]; unfold cc2__out_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  · iexists _; isplitr
    swap; · iexact H4
    ipureintro
    exact View.read_writes_eq_canon _ _ _ (cover2_4 _)

/-- The region's proof data on a core: the arrays as the region finds them; after the body each input's buffer at its
    block and each output's at its store; nothing owed; the shares `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]
theorem q_eq2 (c : Dev nD) (w : Fin cfg2.W) : (dat2 V q c).q w = q w := by
  dsimp only [dat2]
theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = iblk2 V c 3 t := by dsimp only [dat2]
theorem after2_4 (c : Dev nD) (t : Fin cfg2.N) : (dat2 V q c).after 4 t = out2_4 (iblk2 V c 0 t) (iblk2 V c 1 t) (iblk2 V c 2 t) (iblk2 V c 3 t) := by dsimp only [dat2]
theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d
theorem before2_3 (c : Dev nD) (t : Fin cfg2.N) (d) : (dat2 V q c).before 3 t d = iblk2 V c 3 t :=
  before2_3_of V (dat2 V q c) (A_eq2 V q c 3) (after2_3 V q c) t d

/-- What the body is called with at a point, and what it returns. -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d)))
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t))

theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3]
  rw [show (dat2 V q c).Φ t.succ = (dat2 V q c).Φ t.castSucc from rfl,
    show (dat2 V q c).owesAt () t.succ = (dat2 V q c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V q c) (defs₀ (F := F)) Variants.none () Set.univ := fun t => by
  rw [bigSep_W2, bigSep_W2]
  exact sound_body2 V q c t

end Cert.Kernel.Hand

end
-- ==== Proof.KShare2.lean ====
/-
  Region three reads the projected hidden layer through two windows. Entering the region the buffer, held whole, is
  split into the two halves of the full share, one per window; leaving it the halves are joined again.
-/
import proofs.«161026_g21131239096597_cont_8to1_6_7_alg».proof.Proof.Gen.Kernel.Launch
import proofs.«161026_g21131239096597_cont_8to1_6_7_alg».proof.Proof.Gen.Kernel.Skeleton
import proofs.«161026_g21131239096597_cont_8to1_6_7_alg».proof.Proof.Gen.Kernel.Points
import proofs.«161026_g21131239096597_cont_8to1_6_7_alg».proof.Proof.KBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The shares of region three's windows: the projected hidden layer is read through two windows, each at one half. -/
def q2 : Fin cfg2.W → PosShare TreeShare := fun w => match w with
  | ⟨1, _⟩ => fullShare.left | ⟨2, _⟩ => fullShare.right | _ => fullShare

theorem split2 (c : Dev nD) (Vc : (b : Ref sig .tc) → Buf (Elt F) ((c : Thread nD τ).loc b)) :
    (unscopedBufs c Vc : sProp 𝕄) = iprop(Pipeline.arrBufs spec2 c Vc ∗ Pipeline.unscopedRest spec2 c Vc) :=
  Pipeline.unscopedBufs_split₀ (cfgs := cfgs) 2 (by decide) c Vc

/-- The distinct buffers behind the region's windows. -/
theorem arrBufs2_eq (c : Dev nD) (Vc : (b : Ref sig .tc) → Buf (Elt F) ((c : Thread nD τ).loc b)) :
    (Pipeline.arrBufs spec2 c Vc : sProp 𝕄)
      = iprop((((c : Thread nD τ).loc main_v6_1) ↦{fullShare} Vc main_v6_1) ∗ (((c : Thread nD τ).loc main_v6_0) ↦{fullShare} Vc main_v6_0) ∗ (((c : Thread nD τ).loc main_v4) ↦{fullShare} Vc main_v4) ∗ (((c : Thread nD τ).loc main_v7) ↦{fullShare} Vc main_v7)) := by
  unfold Pipeline.arrBufs
  exact bigSep_eq_bigSepL_of_eq [main_v6_1, main_v6_0, main_v4, main_v7] (by decide) (by decide) _

/-- The windows' arrays one by one, each at its share. -/
theorem arrays2_eq (c : Dev nD) (G : (w : Fin cfg2.W) → Buf (Elt F) ((cfg2.win w).arr.view.loc (c : Thread nD τ))) :
    ((dat2 V q2 c).arrays G : sProp 𝕄)
      = iprop((((c : Thread nD τ).loc main_v6_1) ↦{fullShare} G 0) ∗ (((c : Thread nD τ).loc main_v6_0) ↦{fullShare.left} G 1) ∗ (((c : Thread nD τ).loc main_v6_0) ↦{fullShare.right} G 2) ∗ (((c : Thread nD τ).loc main_v4) ↦{fullShare} G 3) ∗ (((c : Thread nD τ).loc main_v7) ↦{fullShare} G 4)) := by
  unfold Dat.arrays
  rw [bigSep_W2, (arr_whole2 0).set_eq_univ, (arr_whole2 1).set_eq_univ, (arr_whole2 3).set_eq_univ, (arr_whole2 4).set_eq_univ]
  rfl

/-- Entering the region: the twice-read buffer is split into its two halves. -/
theorem entry2 (c : Dev nD) :
    (unscopedBufs c (V c) : sProp 𝕄) ⊢ iprop((dat2 V q2 c).arrays (fun w => (dat2 V q2 c).arrAt w 0) ∗ Pipeline.unscopedRest spec2 c (V c)) := by
  rw [split2, arrBufs2_eq, arrays2_eq]
  iintro ⟨⟨H0, H12, H3, H4⟩, Hrest⟩
  ihave H' := (pointsTo_share (PosShare.mem_left_op_right fullShare)).1 $$ H12
  icases H' with ⟨H1, H2⟩
  isplitr [Hrest]
  · isplitl [H0]; · iexact H0
    isplitl [H1]; · iexact H1
    isplitl [H2]; · iexact H2
    isplitl [H3]; · iexact H3
    iexact H4
  iexact Hrest

/-- Leaving the region: the two halves are joined again, and the buffers stand at any valuation that has the
    windows' arrays at the given contents and agrees with the entry valuation elsewhere. -/
theorem exit2 (c : Dev nD) (V' : (b : Ref sig .tc) → Buf (Elt F) ((c : Thread nD τ).loc b))
    (G : (w : Fin cfg2.W) → Buf (Elt F) ((cfg2.win w).arr.view.loc (c : Thread nD τ)))
    (h0 : G 0 = V' main_v6_1) (h1 : G 1 = V' main_v6_0) (h2 : G 2 = V' main_v6_0) (h3 : G 3 = V' main_v4) (h4 : G 4 = V' main_v7)
    (hrest : ∀ b, b ∉ Finset.univ.image (Pipeline.arrRef spec2) → V' b = V c b) :
    iprop((dat2 V q2 c).arrays G ∗ Pipeline.unscopedRest spec2 c (V c)) ⊢ (unscopedBufs c V' : sProp 𝕄) := by
  have hr : (Pipeline.unscopedRest spec2 c (V c) : sProp 𝕄) = Pipeline.unscopedRest spec2 c V' := by
    unfold Pipeline.unscopedRest
    exact bigSep_congr fun b hb => by rw [hrest b (Finset.mem_sdiff.mp hb).2]
  rw [split2 c V', arrBufs2_eq, arrays2_eq, h0, h1, h2, h3, h4, hr]
  iintro ⟨⟨H0, H1, H2, H3, H4⟩, Hrest⟩
  isplitr [Hrest]
  · isplitl [H0]; · iexact H0
    isplitl [H1 H2]
    · iapply (pointsTo_share (PosShare.mem_left_op_right fullShare)).2
      isplitl [H1]; · iexact H1
      iexact H2
    isplitl [H3]; · iexact H3
    iexact H4
  iexact Hrest

end Cert.Kernel.Hand

end
-- ==== Proof.KRun.lean ====
/-
  The whole program as four segments — the host stretch that lays the biases out, then the three kernel regions — run from
  the launch memory to the end. Between segments each core's buffers stand at a known valuation: the launch contents,
  then the host stretch applied, then each region's output arrays replaced by what its grid points wrote back. The
  buffer that two windows of one region read is held by them at the two halves of the full share for the region's
  duration and whole outside it. The run ends with every argument as launched and the result buffer at what the third
  region wrote.
-/
import proofs.«161026_g21131239096597_cont_8to1_6_7_alg».proof.Proof.Gen.Kernel.Launch
import proofs.«161026_g21131239096597_cont_8to1_6_7_alg».proof.Proof.Gen.Kernel.Skeleton
import proofs.«161026_g21131239096597_cont_8to1_6_7_alg».proof.Proof.Gen.Kernel.Points
import proofs.«161026_g21131239096597_cont_8to1_6_7_alg».proof.Proof.KBody0
import proofs.«161026_g21131239096597_cont_8to1_6_7_alg».proof.Proof.KShare1
import proofs.«161026_g21131239096597_cont_8to1_6_7_alg».proof.Proof.KShare2
import proofs.«161026_g21131239096597_cont_8to1_6_7_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between segments -/

/-- At launch. -/
abbrev W0 (c : Dev nD) : Valuation τ sig (Elt F) := fun b => m (c, b)
/-- After the host stretch. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- What region one's write-backs leave in its output array. -/
def resV (c : Dev nD) : Buf (Elt F) ((c : Thread nD τ).loc main_v5) := (dat0 (V1 m) c).arrAt 2 cfg0.N
/-- After region one. -/
def W2 (c : Dev nD) : Valuation τ sig (Elt F) := Function.update (W1 m c) main_v5 (resV m c)
abbrev V2 : (c : Dev nD) → (b : Ref sig .tc) → Buf (Elt F) ((c : Thread nD τ).loc b) := fun c b => W2 m c b
/-- What region two's write-backs leave in its two output arrays. -/
def resU (c : Dev nD) : Buf (Elt F) ((c : Thread nD τ).loc main_v6_0) := (dat1 (V2 m) q1 c).arrAt 5 cfg1.N
def resH (c : Dev nD) : Buf (Elt F) ((c : Thread nD τ).loc main_v6_1) := (dat1 (V2 m) q1 c).arrAt 6 cfg1.N
/-- After region two. -/
def W3 (c : Dev nD) : Valuation τ sig (Elt F) :=
  Function.update (Function.update (W2 m c) main_v6_0 (resU m c)) main_v6_1 (resH m c)
abbrev V3 : (c : Dev nD) → (b : Ref sig .tc) → Buf (Elt F) ((c : Thread nD τ).loc b) := fun c b => W3 m c b
/-- What region three's write-backs leave in the result array. -/
def resO (c : Dev nD) : Buf (Elt F) ((c : Thread nD τ).loc main_v7) := (dat2 (V3 m) q2 c).arrAt 4 cfg2.N
/-- After region three. -/
def W4 (c : Dev nD) : Valuation τ sig (Elt F) := Function.update (W3 m c) main_v7 (resO m c)
abbrev V4 : (c : Dev nD) → (b : Ref sig .tc) → Buf (Elt F) ((c : Thread nD τ).loc b) := fun c b => W4 m c b

/-- A valuation replaced at one buffer, read at another. -/
theorem upd_ne (W : Valuation τ sig (Elt F)) (r b : Ref sig .tc) (x) (h : b ≠ r) :
    Function.update W (Proc.devRef .tc r) x (Proc.devRef .tc b) = W (Proc.devRef .tc b) :=
  Function.update_of_ne (StableHlo.devRef_ne_of_ne h) _ _

theorem V2_of (c : Dev nD) (b : Ref sig .tc) (h : b ≠ main_v5) : V2 m c b = V1 m c b := upd_ne _ _ _ _ h
theorem V2_v5 (c : Dev nD) : V2 m c main_v5 = resV m c := Function.update_self ..
theorem V3_of (c : Dev nD) (b : Ref sig .tc) (h0 : b ≠ main_v6_0) (h1 : b ≠ main_v6_1) : V3 m c b = V2 m c b :=
  (upd_ne _ _ _ _ h1).trans (upd_ne _ _ _ _ h0)
theorem V3_v6_0 (c : Dev nD) : V3 m c main_v6_0 = resU m c :=
  (upd_ne _ _ _ _ (by decide)).trans (Function.update_self ..)
theorem V3_v6_1 (c : Dev nD) : V3 m c main_v6_1 = resH m c := Function.update_self ..
theorem V4_of (c : Dev nD) (b : Ref sig .tc) (h : b ≠ main_v7) : V4 m c b = V3 m c b := upd_ne _ _ _ _ h
theorem V4_v7 (c : Dev nD) : V4 m c main_v7 = resO m c := Function.update_self ..

/-- No segment writes an argument: it reaches the end as launched. -/
theorem V4_arg (c : Dev nD) (b : Ref sig .tc) (h7 : b ≠ main_v7) (h60 : b ≠ main_v6_0) (h61 : b ≠ main_v6_1) (h5 : b ≠ main_v5)
    (hh : b ∉ Gen.hostOps0_W) : V4 m c b = m ((c : Thread nD τ).loc b) :=
  (V4_of m c b h7).trans <| (V3_of m c b h60 h61).trans <| (V2_of m c b h5).trans <| Gen.V1_of m c b hh

/-! ## The proof data family and the thread state -/

def pdats : (p : Fin 3) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V2 m) q1 c
  | ⟨2, _⟩ => fun c => dat2 (V3 m) q2 c
abbrev 𝒱₀ : Variants := Variants.none
abbrev Lz : GSem nD τ sig → Finset Unit := fun _ => ∅
abbrev lvz : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- The last thread state without what is owed. -/
abbrev Tn (c : Dev nD) : sProp 𝕄 := iprop(StableHlo.held (c : Thread nD τ) (Pipeline.ucRefs τ sig) (W4 m c) ∗ ∃ r, prngReg c r)

/-! ## The regions as segments -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region one, entered with the buffers after the host stretch, left with its output array at what it wrote. -/
def reg0 : Pipeline.RegionSeg (pcfgs (F := F)) Gen.adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ Lz lvz 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N)
      (fun w => match w with
        | ⟨0, _⟩ => ((dat0 (V1 m) c).arrAt_in 0 rfl _).trans ((A_eq0 (V1 m) c 0).trans (V2_of m c main_arg0 (by decide)).symm)
        | ⟨1, _⟩ => ((dat0 (V1 m) c).arrAt_in 1 rfl _).trans ((A_eq0 (V1 m) c 1).trans (V2_of m c main_arg2 (by decide)).symm)
        | ⟨2, _⟩ => (V2_v5 m c).symm)
      (fun b hb => V2_of m c b fun e => hb (e ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region two: the projected features, read through two windows, are split on entry and joined on exit. -/
def reg1 : Pipeline.RegionSeg (pcfgs (F := F)) Gen.adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (V2 m) q1 c).loose
  hwaits := Pipeline.hwaits_of_owed_zero _ _ _ _ Lz lvz 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop((pdats m 1 c).arrays (fun x => (pdats m 1 c).arrAt x 0) ∗ Pipeline.unscopedRest spec1 c (V2 m c)) :=
      entry1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays (fun x => (pdats m 1 c).arrAt x cfg1.N) ∗ Pipeline.unscopedRest spec1 c (V2 m c)) ⊢ (unscopedBufs c (V3 m c) : sProp 𝕄) :=
      exit1 (V2 m) c (V3 m c) _
        (((dat1 (V2 m) q1 c).arrAt_in 0 rfl _).trans ((A_eq1 (V2 m) q1 c 0).trans (V3_of m c main_arg1 (by decide) (by decide)).symm))
        (((dat1 (V2 m) q1 c).arrAt_in 1 rfl _).trans ((A_eq1 (V2 m) q1 c 1).trans (V3_of m c main_v5 (by decide) (by decide)).symm))
        (((dat1 (V2 m) q1 c).arrAt_in 2 rfl _).trans ((A_eq1 (V2 m) q1 c 2).trans (V3_of m c main_v5 (by decide) (by decide)).symm))
        (((dat1 (V2 m) q1 c).arrAt_in 3 rfl _).trans ((A_eq1 (V2 m) q1 c 3).trans (V3_of m c main_v3 (by decide) (by decide)).symm))
        (((dat1 (V2 m) q1 c).arrAt_in 4 rfl _).trans ((A_eq1 (V2 m) q1 c 4).trans (V3_of m c main_arg4 (by decide) (by decide)).symm))
        (V3_v6_0 m c).symm (V3_v6_1 m c).symm
        (fun b hb => V3_of m c b (fun e => hb (e ▸ Finset.mem_image.mpr ⟨5, Finset.mem_univ _, rfl⟩)) (fun e => hb (e ▸ Finset.mem_image.mpr ⟨6, Finset.mem_univ _, rfl⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region three: the projected hidden layer, read through two windows, is split on entry and joined on exit. -/
def reg2 : Pipeline.RegionSeg (pcfgs (F := F)) Gen.adm (pdats m) () defs₀ 𝒱₀ Lz lvz 2 where
  win := winFacts₀2
  block_pos := block_pos2
  stage_whole := stage_whole2
  K := PEmpty
  osem k := k.elim
  ho := Pipeline.OwnSemFacts.none _
  hbody c := (body_obligation2 (V3 m) q2 c).loose
  hwaits := Pipeline.hwaits_of_owed_zero _ _ _ _ Lz lvz 2 fun _ _ => rfl
  pre c := iprop(StableHlo.held (c : Thread nD τ) (Pipeline.ucRefs τ sig) (W3 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit : (unscopedBufs c (V3 m c) : sProp 𝕄) ⊢ iprop((pdats m 2 c).arrays (fun x => (pdats m 2 c).arrAt x 0) ∗ Pipeline.unscopedRest spec2 c (V3 m c)) :=
      entry2 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays (fun x => (pdats m 2 c).arrAt x cfg2.N) ∗ Pipeline.unscopedRest spec2 c (V3 m c)) ⊢ (unscopedBufs c (V4 m c) : sProp 𝕄) :=
      exit2 (V3 m) c (V4 m c) _
        (((dat2 (V3 m) q2 c).arrAt_in 0 rfl _).trans ((A_eq2 (V3 m) q2 c 0).trans (V4_of m c main_v6_1 (by decide)).symm))
        (((dat2 (V3 m) q2 c).arrAt_in 1 rfl _).trans ((A_eq2 (V3 m) q2 c 1).trans (V4_of m c main_v6_0 (by decide)).symm))
        (((dat2 (V3 m) q2 c).arrAt_in 2 rfl _).trans ((A_eq2 (V3 m) q2 c 2).trans (V4_of m c main_v6_0 (by decide)).symm))
        (((dat2 (V3 m) q2 c).arrAt_in 3 rfl _).trans ((A_eq2 (V3 m) q2 c 3).trans (V4_of m c main_v4 (by decide)).symm))
        (V4_v7 m c).symm
        (fun b hb => V4_of m c b fun e => hb (e ▸ Finset.mem_image.mpr ⟨4, Finset.mem_univ _, rfl⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The host stretch as a segment over the buffers from their launch contents. -/
abbrev hseg0 : Pipeline.HostSeg (Name := ℕ) (U := UR sig nD τ) (pcfgs (F := F)) defs₀ 𝒱₀ Lz lvz :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R

abbrev segs : List (Pipeline.Seg (pcfgs (F := F)) Gen.adm (pdats m) () defs₀ 𝒱₀ Lz lvz) :=
  [ .host (hseg0 m), .region (reg0 m), .region (reg1 m), .region (reg2 m) ]

theorem main_run (c : Dev nD) : main (F := F) c = Pipeline.Seg.run (segs m) := (main_chain c).trans (by chain_rfl)

set_option backward.isDefEq.respectTransparency.types false in
/-- THE RUN: from any memory with zero counters every weakly fair execution terminates, nothing faulting; the result
    buffer ends at what region three wrote and every argument as launched. -/
theorem run : θ_run defs (onTc (τ := τ) (main (F := F))) ⟨m, fun _ => 0, ρ⟩ (fun r => ∀ c : Dev nD,
      r.2.mem ((c.tc : Thread nD τ).loc main_v7) = resO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (V4_v7 m c),
       (h c _ (mem_uc main_arg0 (by decide))).trans (V4_arg m c main_arg0 (by decide) (by decide) (by decide) (by decide) (by decide)),
       (h c _ (mem_uc main_arg1 (by decide))).trans (V4_arg m c main_arg1 (by decide) (by decide) (by decide) (by decide) (by decide)),
       (h c _ (mem_uc main_arg2 (by decide))).trans (V4_arg m c main_arg2 (by decide) (by decide) (by decide) (by decide) (by decide)),
       (h c _ (mem_uc main_arg3 (by decide))).trans (V4_arg m c main_arg3 (by decide) (by decide) (by decide) (by decide) (by decide)),
       (h c _ (mem_uc main_arg4 (by decide))).trans (V4_arg m c main_arg4 (by decide) (by decide) (by decide) (by decide) (by decide)),
       (h c _ (mem_uc main_arg5 (by decide))).trans (V4_arg m c main_arg5 (by decide) (by decide) (by decide) (by decide) (by decide))⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.Kernel.Hand

end
-- ==== Proof.KiBody0.lean ====
/-
  The first kernel region at a grid point: the two inputs' row blocks are multiplied by the whole weight matrix and
  stored side by side, as the left and the right half of the output block.
-/
import proofs.«161026_g21131239096597_cont_8to1_6_7_alg».proof.Proof.Gen.KernelIdeal.Launch
import proofs.«161026_g21131239096597_cont_8to1_6_7_alg».proof.Proof.Gen.KernelIdeal.Skeleton
import proofs.«161026_g21131239096597_cont_8to1_6_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes. -/
abbrev rx0 : Rect S2x2000x256 := Rect.unit (s := S2x2000x256) ![0, 0, 0] S1x2000x256.size inb_S2x2000x256_S1x2000x256_0_0_0
abbrev rx1 : Rect S2x2000x256 := Rect.unit (s := S2x2000x256) ![1, 0, 0] S1x2000x256.size inb_S2x2000x256_S1x2000x256_1_0_0
abbrev rw1 : Rect S256x256 := Rect.unit (s := S256x256) ![0, 0] S256x256.size inb_S256x256_S256x256_0_0
abbrev ro0 : Rect S2000x512 := Rect.unit (s := S2000x512) ![0, 0] S2000x256.size inb_S2000x512_S2000x256_0_0
abbrev ro1 : Rect S2000x512 := Rect.unit (s := S2000x512) ![0, 256] S2000x256.size inb_S2000x512_S2000x256_0_256

/-- The output block after the body: the two halves, the later store first. -/
def out0_2 (x0 : Vec F S2x2000x256 .f32) (x1 : Vec F S256x256 .f32) : Vec F S2000x512 .bf16 :=
  View.canon [⟨ro1, k0_pay2 (View.ld x0 rx1) (View.ld x1 rw1)⟩, ⟨ro0, k0_pay1 (View.ld x0 rx0) (View.ld x1 rw1)⟩]

/-- The two halves cover the block. -/
theorem cover0_2 (p0 p1 : Vec F S2000x256 .bf16) (y : S2000x512.Idx) :
    ∃ pc ∈ ([⟨ro1, p1⟩, ⟨ro0, p0⟩] : List (View.Piece (Elt F) S2000x512 .bf16)), y ∈ pc.1.set :=
  View.cover_of_tiled [⟨ro1, p1⟩, ⟨ro0, p0⟩] S2000x256.size (by rfl) y

set_option maxHeartbeats 1000000 in
/-- The body on whole staging buffers: the inputs stay, the output ends at the two stored halves. -/
theorem sound_kernel0 (c : Dev nD) (E : Set ℕ) (i : grid0.Coords) (arg1 : Memref sig .tc .vmem S2x2000x256 .f32) (harg1 : arg1.IsWhole)
    (arg2 : Memref sig .tc .vmem S256x256 .f32) (harg2 : arg2.IsWhole) (arg3 : Memref sig .tc .vmem S2000x512 .bf16) (harg3 : arg3.IsWhole)
    (x0 : Vec F S2x2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__v_body i arg1 harg1 arg2 harg2 arg3 harg3) K := by
  simp only [cc0__v_body_eq_skeleton]; unfold cc0__v_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-- The region's proof data on a core: the arrays as the region finds them; after the body each input's buffer at its
    block and the output's at the two stored halves; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at a point, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiBody1.lean ====
/-
  The second kernel region at a grid point: a row stripe of the graph matrix times the whole projected features, plus
  the stripe's own rows of them, plus the bias, clipped below at zero, then projected through the second weight
  matrix; the stripe itself is also written out, unchanged in value.
-/
import proofs.«161026_g21131239096597_cont_8to1_6_7_alg».proof.Proof.Gen.KernelIdeal.Launch
import proofs.«161026_g21131239096597_cont_8to1_6_7_alg».proof.Proof.Gen.KernelIdeal.Skeleton
import proofs.«161026_g21131239096597_cont_8to1_6_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes. -/
abbrev r1_S200x10000 : Rect S200x10000 := Rect.unit (s := S200x10000) ![0, 0] S200x10000.size inb_S200x10000_S200x10000_0_0
abbrev r1_S10000x512 : Rect S10000x512 := Rect.unit (s := S10000x512) ![0, 0] S10000x512.size inb_S10000x512_S10000x512_0_0
abbrev r1_S200x512 : Rect S200x512 := Rect.unit (s := S200x512) ![0, 0] S200x512.size inb_S200x512_S200x512_0_0
abbrev r1_S1x512 : Rect S1x512 := Rect.unit (s := S1x512) ![0, 0] S1x512.size inb_S1x512_S1x512_0_0
abbrev r1_S512x40 : Rect S512x40 := Rect.unit (s := S512x40) ![0, 0] S512x40.size inb_S512x40_S512x40_0_0
abbrev r1_S200x40 : Rect S200x40 := Rect.unit (s := S200x40) ![0, 0] S200x40.size inb_S200x40_S200x40_0_0

/-- Output window 5's block after the body: its one store. -/
def out1_5 (x0 : Vec F S200x10000 .f32) (x1 : Vec F S10000x512 .bf16) (x2 : Vec F S200x512 .bf16) (x3 : Vec F S1x512 .f32) (x4 : Vec F S512x40 .f32) : Vec F S200x40 .f32 :=
  View.canon [⟨r1_S200x40, k1_pay2 (View.ld x0 r1_S200x10000) (View.ld x1 r1_S10000x512) (View.ld x2 r1_S200x512) (View.ld x3 r1_S1x512) (View.ld x4 r1_S512x40)⟩]
theorem cover1_5 (p0 : Vec F S200x40 .f32) (y : S200x40.Idx) :
    ∃ pc ∈ ([⟨r1_S200x40, p0⟩] : List (View.Piece (Elt F) S200x40 .f32)), y ∈ pc.1.set :=
  View.cover_of_tiled [⟨r1_S200x40, p0⟩] S200x40.size (by rfl) y

/-- Output window 6's block after the body: its one store. -/
def out1_6 (x0 : Vec F S200x10000 .f32) : Vec F S200x10000 .bf16 :=
  View.canon [⟨r1_S200x10000, k1_pay1 (View.ld x0 r1_S200x10000)⟩]
theorem cover1_6 (p0 : Vec F S200x10000 .bf16) (y : S200x10000.Idx) :
    ∃ pc ∈ ([⟨r1_S200x10000, p0⟩] : List (View.Piece (Elt F) S200x10000 .bf16)), y ∈ pc.1.set :=
  View.cover_of_tiled [⟨r1_S200x10000, p0⟩] S200x10000.size (by rfl) y

set_option maxHeartbeats 1000000 in
/-- The body on whole staging buffers: the inputs stay, each output ends at its one store. -/
theorem sound_kernel1 (c : Dev nD) (E : Set ℕ) (i : grid1.Coords) (arg1 : Memref sig .tc .vmem S200x10000 .f32) (harg1 : arg1.IsWhole) (arg2 : Memref sig .tc .vmem S10000x512 .bf16) (harg2 : arg2.IsWhole) (arg3 : Memref sig .tc .vmem S200x512 .bf16) (harg3 : arg3.IsWhole) (arg4 : Memref sig .tc .vmem S1x512 .f32) (harg4 : arg4.IsWhole) (arg5 : Memref sig .tc .vmem S512x40 .f32) (harg5 : arg5.IsWhole) (arg6 : Memref sig .tc .vmem S200x40 .f32) (harg6 : arg6.IsWhole) (arg7 : Memref sig .tc .vmem S200x10000 .bf16) (harg7 : arg7.IsWhole)
    (x0 : Vec F S200x10000 .f32) (x1 : Vec F S10000x512 .bf16) (x2 : Vec F S200x512 .bf16) (x3 : Vec F S1x512 .f32) (x4 : Vec F S512x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0)) -∗ K ⟨⟩))
      ⊢ wp frame (wpE (defs₀ (F := F)) Variants.none c none) E (cc1__uni_body i arg1 harg1 arg2 harg2 arg3 harg3 arg4 harg4 arg5 harg5 arg6 harg6 arg7 harg7) K := by
  simp only [cc1__uni_body_eq_skeleton]; unfold cc1__uni_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  · iexists _; isplitr
    swap; · iexact H6
    ipureintro
    exact View.read_writes_eq_canon _ _ _ (cover1_6 _)

/-- The region's proof data on a core: the arrays as the region finds them; after the body each input's buffer at its
    block and each output's at its store; nothing owed; the shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]
theorem q_eq1 (c : Dev nD) (w : Fin cfg1.W) : (dat1 V q c).q w = q w := by
  dsimp only [dat1]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V q c).after 6 t = out1_6 (iblk1 V c 0 t) := by dsimp only [dat1]
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d

/-- What the body is called with at a point, and what it returns. -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d)))
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t))

theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V q c) (defs₀ (F := F)) Variants.none () Set.univ := fun t => by
  rw [bigSep_W1, bigSep_W1]
  exact sound_body1 V q c t

end Cert.KernelIdeal.Hand

end
-- ==== Proof.KiShare1.lean ====
/-
  Region two reads the projected features through two windows. Entering the region the buffer, held whole, is split
  into the two halves of the full share, one per window; leaving it the halves are joined again.
-/
import proofs.«161026_g21131239096597_cont_8to1_6_7_alg».proof.Proof.Gen.KernelIdeal.Launch
import proofs.«161026_g21131239096597_cont_8to1_6_7_alg».proof.Proof.Gen.KernelIdeal.Skeleton
import proofs.«161026_g21131239096597_cont_8to1_6_7_alg».proof.Proof.Gen.KernelIdeal.Points
import proofs.«161026_g21131239096597_cont_8to1_6_7_alg».proof.Proof.KiBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The shares of region two's windows: the projected features are read through two windows, each at one half. -/
def q1 : Fin cfg1.W → PosShare TreeShare := fun w => match w with
  | ⟨1, _⟩ => fullShare.left | ⟨2, _⟩ => fullShare.right | _ => fullShare

theorem split1 (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) :=
  Pipeline.unscopedBufs_split₀ (cfgs := cfgs) 1 (by decide) c Vc

/-- The distinct buffers behind the region's windows. -/
theorem arrBufs1_eq (c : Dev nD) (Vc : (b : Ref sig .tc) → Buf (Elt F) ((c : Thread nD τ).loc b)) :
    (Pipeline.arrBufs spec1 c Vc : sProp 𝕄)
      = iprop((((c : Thread nD τ).loc main_arg1) ↦{fullShare} Vc main_arg1) ∗ (((c : Thread nD τ).loc main_v5) ↦{fullShare} Vc main_v5) ∗ (((c : Thread nD τ).loc main_v3) ↦{fullShare} Vc main_v3) ∗ (((c : Thread nD τ).loc main_arg4) ↦{fullShare} Vc main_arg4) ∗ (((c : Thread nD τ).loc main_v6_0) ↦{fullShare} Vc main_v6_0) ∗ (((c : Thread nD τ).loc main_v6_1) ↦{fullShare} Vc main_v6_1)) := by
  unfold Pipeline.arrBufs
  exact bigSep_eq_bigSepL_of_eq [main_arg1, main_v5, main_v3, main_arg4, main_v6_0, main_v6_1] (by decide) (by decide) _

/-- The windows' arrays one by one, each at its share. -/
theorem arrays1_eq (c : Dev nD) (G : (w : Fin cfg1.W) → Buf (Elt F) ((cfg1.win w).arr.view.loc (c : Thread nD τ))) :
    ((dat1 V q1 c).arrays G : sProp 𝕄)
      = iprop((((c : Thread nD τ).loc main_arg1) ↦{fullShare} G 0) ∗ (((c : Thread nD τ).loc main_v5) ↦{fullShare.left} G 1) ∗ (((c : Thread nD τ).loc main_v5) ↦{fullShare.right} G 2) ∗ (((c : Thread nD τ).loc main_v3) ↦{fullShare} G 3) ∗ (((c : Thread nD τ).loc main_arg4) ↦{fullShare} G 4) ∗ (((c : Thread nD τ).loc main_v6_0) ↦{fullShare} G 5) ∗ (((c : Thread nD τ).loc main_v6_1) ↦{fullShare} G 6)) := by
  unfold Dat.arrays
  rw [bigSep_W1, (arr_whole1 0).set_eq_univ, (arr_whole1 1).set_eq_univ, (arr_whole1 3).set_eq_univ, (arr_whole1 4).set_eq_univ, (arr_whole1 5).set_eq_univ, (arr_whole1 6).set_eq_univ]
  rfl

/-- Entering the region: the twice-read buffer is split into its two halves. -/
theorem entry1 (c : Dev nD) :
    (unscopedBufs c (V c) : sProp 𝕄) ⊢ iprop((dat1 V q1 c).arrays (fun w => (dat1 V q1 c).arrAt w 0) ∗ Pipeline.unscopedRest spec1 c (V c)) := by
  rw [split1, arrBufs1_eq, arrays1_eq]
  iintro ⟨⟨H0, H12, H3, H4, H5, H6⟩, Hrest⟩
  ihave H' := (pointsTo_share (PosShare.mem_left_op_right fullShare)).1 $$ H12
  icases H' with ⟨H1, H2⟩
  isplitr [Hrest]
  · isplitl [H0]; · iexact H0
    isplitl [H1]; · iexact H1
    isplitl [H2]; · iexact H2
    isplitl [H3]; · iexact H3
    isplitl [H4]; · iexact H4
    isplitl [H5]; · iexact H5
    iexact H6
  iexact Hrest

/-- Leaving the region: the two halves are joined again, and the buffers stand at any valuation that has the
    windows' arrays at the given contents and agrees with the entry valuation elsewhere. -/
theorem exit1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_arg1) (h1 : G 1 = V' main_v5) (h2 : G 2 = V' main_v5) (h3 : G 3 = V' main_v3) (h4 : G 4 = V' main_arg4) (h5 : G 5 = V' main_v6_0) (h6 : G 6 = V' main_v6_1)
    (hrest : ∀ b, b ∉ Finset.univ.image (Pipeline.arrRef spec1) → V' b = V c b) :
    iprop((dat1 V q1 c).arrays G ∗ Pipeline.unscopedRest spec1 c (V c)) ⊢ (unscopedBufs c V' : sProp 𝕄) := by
  have hr : (Pipeline.unscopedRest spec1 c (V c) : sProp 𝕄) = Pipeline.unscopedRest spec1 c V' := by
    unfold Pipeline.unscopedRest
    exact bigSep_congr fun b hb => by rw [hrest b (Finset.mem_sdiff.mp hb).2]
  rw [split1 c V', arrBufs1_eq, arrays1_eq, h0, h1, h2, h3, h4, h5, h6, hr]
  iintro ⟨⟨H0, H1, H2, H3, H4, H5, H6⟩, Hrest⟩
  isplitr [Hrest]
  · isplitl [H0]; · iexact H0
    isplitl [H1 H2]
    · iapply (pointsTo_share (PosShare.mem_left_op_right fullShare)).2
      isplitl [H1]; · iexact H1
      iexact H2
    isplitl [H3]; · iexact H3
    isplitl [H4]; · iexact H4
    isplitl [H5]; · iexact H5
    iexact H6
  iexact Hrest

end Cert.KernelIdeal.Hand

end
-- ==== Proof.KiBody2.lean ====
/-
  The third kernel region at a grid point: a row stripe of the graph matrix times the whole projected hidden layer,
  plus the stripe's own rows of it, plus the bias.
-/
import proofs.«161026_g21131239096597_cont_8to1_6_7_alg».proof.Proof.Gen.KernelIdeal.Launch
import proofs.«161026_g21131239096597_cont_8to1_6_7_alg».proof.Proof.Gen.KernelIdeal.Skeleton
import proofs.«161026_g21131239096597_cont_8to1_6_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes. -/
abbrev r2_S200x10000 : Rect S200x10000 := Rect.unit (s := S200x10000) ![0, 0] S200x10000.size inb_S200x10000_S200x10000_0_0
abbrev r2_S10000x40 : Rect S10000x40 := Rect.unit (s := S10000x40) ![0, 0] S10000x40.size inb_S10000x40_S10000x40_0_0
abbrev r2_S200x40 : Rect S200x40 := Rect.unit (s := S200x40) ![0, 0] S200x40.size inb_S200x40_S200x40_0_0
abbrev r2_S1x40 : Rect S1x40 := Rect.unit (s := S1x40) ![0, 0] S1x40.size inb_S1x40_S1x40_0_0

/-- Output window 4's block after the body: its one store. -/
def out2_4 (x0 : Vec F S200x10000 .bf16) (x1 : Vec F S10000x40 .f32) (x2 : Vec F S200x40 .f32) (x3 : Vec F S1x40 .f32) : Vec F S200x40 .f32 :=
  View.canon [⟨r2_S200x40, k2_pay1 (View.ld x0 r2_S200x10000) (View.ld x1 r2_S10000x40) (View.ld x2 r2_S200x40) (View.ld x3 r2_S1x40)⟩]
theorem cover2_4 (p0 : Vec F S200x40 .f32) (y : S200x40.Idx) :
    ∃ pc ∈ ([⟨r2_S200x40, p0⟩] : List (View.Piece (Elt F) S200x40 .f32)), y ∈ pc.1.set :=
  View.cover_of_tiled [⟨r2_S200x40, p0⟩] S200x40.size (by rfl) y

set_option maxHeartbeats 1000000 in
/-- The body on whole staging buffers: the inputs stay, each output ends at its one store. -/
theorem sound_kernel2 (c : Dev nD) (E : Set ℕ) (i : grid2.Coords) (arg1 : Memref sig .tc .vmem S200x10000 .bf16) (harg1 : arg1.IsWhole) (arg2 : Memref sig .tc .vmem S10000x40 .f32) (harg2 : arg2.IsWhole) (arg3 : Memref sig .tc .vmem S200x40 .f32) (harg3 : arg3.IsWhole) (arg4 : Memref sig .tc .vmem S1x40 .f32) (harg4 : arg4.IsWhole) (arg5 : Memref sig .tc .vmem S200x40 .f32) (harg5 : arg5.IsWhole)
    (x0 : Vec F S200x10000 .bf16) (x1 : Vec F S10000x40 .f32) (x2 : Vec F S200x40 .f32) (x3 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__out_body i arg1 harg1 arg2 harg2 arg3 harg3 arg4 harg4 arg5 harg5) K := by
  simp only [cc2__out_body_eq_skeleton]; unfold cc2__out_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  · iexists _; isplitr
    swap; · iexact H4
    ipureintro
    exact View.read_writes_eq_canon _ _ _ (cover2_4 _)

/-- The region's proof data on a core: the arrays as the region finds them; after the body each input's buffer at its
    block and each output's at its store; nothing owed; the shares `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]
theorem q_eq2 (c : Dev nD) (w : Fin cfg2.W) : (dat2 V q c).q w = q w := by
  dsimp only [dat2]
theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = iblk2 V c 3 t := by dsimp only [dat2]
theorem after2_4 (c : Dev nD) (t : Fin cfg2.N) : (dat2 V q c).after 4 t = out2_4 (iblk2 V c 0 t) (iblk2 V c 1 t) (iblk2 V c 2 t) (iblk2 V c 3 t) := by dsimp only [dat2]
theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d
theorem before2_3 (c : Dev nD) (t : Fin cfg2.N) (d) : (dat2 V q c).before 3 t d = iblk2 V c 3 t :=
  before2_3_of V (dat2 V q c) (A_eq2 V q c 3) (after2_3 V q c) t d

/-- What the body is called with at a point, and what it returns. -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d)))
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t))

theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3]
  rw [show (dat2 V q c).Φ t.succ = (dat2 V q c).Φ t.castSucc from rfl,
    show (dat2 V q c).owesAt () t.succ = (dat2 V q c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V q c) (defs₀ (F := F)) Variants.none () Set.univ := fun t => by
  rw [bigSep_W2, bigSep_W2]
  exact sound_body2 V q c t

end Cert.KernelIdeal.Hand

end
-- ==== Proof.KiShare2.lean ====
/-
  Region three reads the projected hidden layer through two windows. Entering the region the buffer, held whole, is
  split into the two halves of the full share, one per window; leaving it the halves are joined again.
-/
import proofs.«161026_g21131239096597_cont_8to1_6_7_alg».proof.Proof.Gen.KernelIdeal.Launch
import proofs.«161026_g21131239096597_cont_8to1_6_7_alg».proof.Proof.Gen.KernelIdeal.Skeleton
import proofs.«161026_g21131239096597_cont_8to1_6_7_alg».proof.Proof.Gen.KernelIdeal.Points
import proofs.«161026_g21131239096597_cont_8to1_6_7_alg».proof.Proof.KiBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The shares of region three's windows: the projected hidden layer is read through two windows, each at one half. -/
def q2 : Fin cfg2.W → PosShare TreeShare := fun w => match w with
  | ⟨1, _⟩ => fullShare.left | ⟨2, _⟩ => fullShare.right | _ => fullShare

theorem split2 (c : Dev nD) (Vc : (b : Ref sig .tc) → Buf (Elt F) ((c : Thread nD τ).loc b)) :
    (unscopedBufs c Vc : sProp 𝕄) = iprop(Pipeline.arrBufs spec2 c Vc ∗ Pipeline.unscopedRest spec2 c Vc) :=
  Pipeline.unscopedBufs_split₀ (cfgs := cfgs) 2 (by decide) c Vc

/-- The distinct buffers behind the region's windows. -/
theorem arrBufs2_eq (c : Dev nD) (Vc : (b : Ref sig .tc) → Buf (Elt F) ((c : Thread nD τ).loc b)) :
    (Pipeline.arrBufs spec2 c Vc : sProp 𝕄)
      = iprop((((c : Thread nD τ).loc main_v6_1) ↦{fullShare} Vc main_v6_1) ∗ (((c : Thread nD τ).loc main_v6_0) ↦{fullShare} Vc main_v6_0) ∗ (((c : Thread nD τ).loc main_v4) ↦{fullShare} Vc main_v4) ∗ (((c : Thread nD τ).loc main_v7) ↦{fullShare} Vc main_v7)) := by
  unfold Pipeline.arrBufs
  exact bigSep_eq_bigSepL_of_eq [main_v6_1, main_v6_0, main_v4, main_v7] (by decide) (by decide) _

/-- The windows' arrays one by one, each at its share. -/
theorem arrays2_eq (c : Dev nD) (G : (w : Fin cfg2.W) → Buf (Elt F) ((cfg2.win w).arr.view.loc (c : Thread nD τ))) :
    ((dat2 V q2 c).arrays G : sProp 𝕄)
      = iprop((((c : Thread nD τ).loc main_v6_1) ↦{fullShare} G 0) ∗ (((c : Thread nD τ).loc main_v6_0) ↦{fullShare.left} G 1) ∗ (((c : Thread nD τ).loc main_v6_0) ↦{fullShare.right} G 2) ∗ (((c : Thread nD τ).loc main_v4) ↦{fullShare} G 3) ∗ (((c : Thread nD τ).loc main_v7) ↦{fullShare} G 4)) := by
  unfold Dat.arrays
  rw [bigSep_W2, (arr_whole2 0).set_eq_univ, (arr_whole2 1).set_eq_univ, (arr_whole2 3).set_eq_univ, (arr_whole2 4).set_eq_univ]
  rfl

/-- Entering the region: the twice-read buffer is split into its two halves. -/
theorem entry2 (c : Dev nD) :
    (unscopedBufs c (V c) : sProp 𝕄) ⊢ iprop((dat2 V q2 c).arrays (fun w => (dat2 V q2 c).arrAt w 0) ∗ Pipeline.unscopedRest spec2 c (V c)) := by
  rw [split2, arrBufs2_eq, arrays2_eq]
  iintro ⟨⟨H0, H12, H3, H4⟩, Hrest⟩
  ihave H' := (pointsTo_share (PosShare.mem_left_op_right fullShare)).1 $$ H12
  icases H' with ⟨H1, H2⟩
  isplitr [Hrest]
  · isplitl [H0]; · iexact H0
    isplitl [H1]; · iexact H1
    isplitl [H2]; · iexact H2
    isplitl [H3]; · iexact H3
    iexact H4
  iexact Hrest

/-- Leaving the region: the two halves are joined again, and the buffers stand at any valuation that has the
    windows' arrays at the given contents and agrees with the entry valuation elsewhere. -/
theorem exit2 (c : Dev nD) (V' : (b : Ref sig .tc) → Buf (Elt F) ((c : Thread nD τ).loc b))
    (G : (w : Fin cfg2.W) → Buf (Elt F) ((cfg2.win w).arr.view.loc (c : Thread nD τ)))
    (h0 : G 0 = V' main_v6_1) (h1 : G 1 = V' main_v6_0) (h2 : G 2 = V' main_v6_0) (h3 : G 3 = V' main_v4) (h4 : G 4 = V' main_v7)
    (hrest : ∀ b, b ∉ Finset.univ.image (Pipeline.arrRef spec2) → V' b = V c b) :
    iprop((dat2 V q2 c).arrays G ∗ Pipeline.unscopedRest spec2 c (V c)) ⊢ (unscopedBufs c V' : sProp 𝕄) := by
  have hr : (Pipeline.unscopedRest spec2 c (V c) : sProp 𝕄) = Pipeline.unscopedRest spec2 c V' := by
    unfold Pipeline.unscopedRest
    exact bigSep_congr fun b hb => by rw [hrest b (Finset.mem_sdiff.mp hb).2]
  rw [split2 c V', arrBufs2_eq, arrays2_eq, h0, h1, h2, h3, h4, hr]
  iintro ⟨⟨H0, H1, H2, H3, H4⟩, Hrest⟩
  isplitr [Hrest]
  · isplitl [H0]; · iexact H0
    isplitl [H1 H2]
    · iapply (pointsTo_share (PosShare.mem_left_op_right fullShare)).2
      isplitl [H1]; · iexact H1
      iexact H2
    isplitl [H3]; · iexact H3
    iexact H4
  iexact Hrest

end Cert.KernelIdeal.Hand

end
-- ==== Proof.KiRun.lean ====
/-
  The whole program as four segments — the host stretch that lays the biases out, then the three kernel regions — run from
  the launch memory to the end. Between segments each core's buffers stand at a known valuation: the launch contents,
  then the host stretch applied, then each region's output arrays replaced by what its grid points wrote back. The
  buffer that two windows of one region read is held by them at the two halves of the full share for the region's
  duration and whole outside it. The run ends with every argument as launched and the result buffer at what the third
  region wrote.
-/
import proofs.«161026_g21131239096597_cont_8to1_6_7_alg».proof.Proof.Gen.KernelIdeal.Launch
import proofs.«161026_g21131239096597_cont_8to1_6_7_alg».proof.Proof.Gen.KernelIdeal.Skeleton
import proofs.«161026_g21131239096597_cont_8to1_6_7_alg».proof.Proof.Gen.KernelIdeal.Points
import proofs.«161026_g21131239096597_cont_8to1_6_7_alg».proof.Proof.KiBody0
import proofs.«161026_g21131239096597_cont_8to1_6_7_alg».proof.Proof.KiShare1
import proofs.«161026_g21131239096597_cont_8to1_6_7_alg».proof.Proof.KiShare2
import proofs.«161026_g21131239096597_cont_8to1_6_7_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between segments -/

/-- At launch. -/
abbrev W0 (c : Dev nD) : Valuation τ sig (Elt F) := fun b => m (c, b)
/-- After the host stretch. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- What region one's write-backs leave in its output array. -/
def resV (c : Dev nD) : Buf (Elt F) ((c : Thread nD τ).loc main_v5) := (dat0 (V1 m) c).arrAt 2 cfg0.N
/-- After region one. -/
def W2 (c : Dev nD) : Valuation τ sig (Elt F) := Function.update (W1 m c) main_v5 (resV m c)
abbrev V2 : (c : Dev nD) → (b : Ref sig .tc) → Buf (Elt F) ((c : Thread nD τ).loc b) := fun c b => W2 m c b
/-- What region two's write-backs leave in its two output arrays. -/
def resU (c : Dev nD) : Buf (Elt F) ((c : Thread nD τ).loc main_v6_0) := (dat1 (V2 m) q1 c).arrAt 5 cfg1.N
def resH (c : Dev nD) : Buf (Elt F) ((c : Thread nD τ).loc main_v6_1) := (dat1 (V2 m) q1 c).arrAt 6 cfg1.N
/-- After region two. -/
def W3 (c : Dev nD) : Valuation τ sig (Elt F) :=
  Function.update (Function.update (W2 m c) main_v6_0 (resU m c)) main_v6_1 (resH m c)
abbrev V3 : (c : Dev nD) → (b : Ref sig .tc) → Buf (Elt F) ((c : Thread nD τ).loc b) := fun c b => W3 m c b
/-- What region three's write-backs leave in the result array. -/
def resO (c : Dev nD) : Buf (Elt F) ((c : Thread nD τ).loc main_v7) := (dat2 (V3 m) q2 c).arrAt 4 cfg2.N
/-- After region three. -/
def W4 (c : Dev nD) : Valuation τ sig (Elt F) := Function.update (W3 m c) main_v7 (resO m c)
abbrev V4 : (c : Dev nD) → (b : Ref sig .tc) → Buf (Elt F) ((c : Thread nD τ).loc b) := fun c b => W4 m c b

/-- A valuation replaced at one buffer, read at another. -/
theorem upd_ne (W : Valuation τ sig (Elt F)) (r b : Ref sig .tc) (x) (h : b ≠ r) :
    Function.update W (Proc.devRef .tc r) x (Proc.devRef .tc b) = W (Proc.devRef .tc b) :=
  Function.update_of_ne (StableHlo.devRef_ne_of_ne h) _ _

theorem V2_of (c : Dev nD) (b : Ref sig .tc) (h : b ≠ main_v5) : V2 m c b = V1 m c b := upd_ne _ _ _ _ h
theorem V2_v5 (c : Dev nD) : V2 m c main_v5 = resV m c := Function.update_self ..
theorem V3_of (c : Dev nD) (b : Ref sig .tc) (h0 : b ≠ main_v6_0) (h1 : b ≠ main_v6_1) : V3 m c b = V2 m c b :=
  (upd_ne _ _ _ _ h1).trans (upd_ne _ _ _ _ h0)
theorem V3_v6_0 (c : Dev nD) : V3 m c main_v6_0 = resU m c :=
  (upd_ne _ _ _ _ (by decide)).trans (Function.update_self ..)
theorem V3_v6_1 (c : Dev nD) : V3 m c main_v6_1 = resH m c := Function.update_self ..
theorem V4_of (c : Dev nD) (b : Ref sig .tc) (h : b ≠ main_v7) : V4 m c b = V3 m c b := upd_ne _ _ _ _ h
theorem V4_v7 (c : Dev nD) : V4 m c main_v7 = resO m c := Function.update_self ..

/-- No segment writes an argument: it reaches the end as launched. -/
theorem V4_arg (c : Dev nD) (b : Ref sig .tc) (h7 : b ≠ main_v7) (h60 : b ≠ main_v6_0) (h61 : b ≠ main_v6_1) (h5 : b ≠ main_v5)
    (hh : b ∉ Gen.hostOps0_W) : V4 m c b = m ((c : Thread nD τ).loc b) :=
  (V4_of m c b h7).trans <| (V3_of m c b h60 h61).trans <| (V2_of m c b h5).trans <| Gen.V1_of m c b hh

/-! ## The proof data family and the thread state -/

def pdats : (p : Fin 3) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V2 m) q1 c
  | ⟨2, _⟩ => fun c => dat2 (V3 m) q2 c
abbrev 𝒱₀ : Variants := Variants.none
abbrev Lz : GSem nD τ sig → Finset Unit := fun _ => ∅
abbrev lvz : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- The last thread state without what is owed. -/
abbrev Tn (c : Dev nD) : sProp 𝕄 := iprop(StableHlo.held (c : Thread nD τ) (Pipeline.ucRefs τ sig) (W4 m c) ∗ ∃ r, prngReg c r)

/-! ## The regions as segments -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region one, entered with the buffers after the host stretch, left with its output array at what it wrote. -/
def reg0 : Pipeline.RegionSeg (pcfgs (F := F)) Gen.adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ Lz lvz 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N)
      (fun w => match w with
        | ⟨0, _⟩ => ((dat0 (V1 m) c).arrAt_in 0 rfl _).trans ((A_eq0 (V1 m) c 0).trans (V2_of m c main_arg0 (by decide)).symm)
        | ⟨1, _⟩ => ((dat0 (V1 m) c).arrAt_in 1 rfl _).trans ((A_eq0 (V1 m) c 1).trans (V2_of m c main_arg2 (by decide)).symm)
        | ⟨2, _⟩ => (V2_v5 m c).symm)
      (fun b hb => V2_of m c b fun e => hb (e ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region two: the projected features, read through two windows, are split on entry and joined on exit. -/
def reg1 : Pipeline.RegionSeg (pcfgs (F := F)) Gen.adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (V2 m) q1 c).loose
  hwaits := Pipeline.hwaits_of_owed_zero _ _ _ _ Lz lvz 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop((pdats m 1 c).arrays (fun x => (pdats m 1 c).arrAt x 0) ∗ Pipeline.unscopedRest spec1 c (V2 m c)) :=
      entry1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays (fun x => (pdats m 1 c).arrAt x cfg1.N) ∗ Pipeline.unscopedRest spec1 c (V2 m c)) ⊢ (unscopedBufs c (V3 m c) : sProp 𝕄) :=
      exit1 (V2 m) c (V3 m c) _
        (((dat1 (V2 m) q1 c).arrAt_in 0 rfl _).trans ((A_eq1 (V2 m) q1 c 0).trans (V3_of m c main_arg1 (by decide) (by decide)).symm))
        (((dat1 (V2 m) q1 c).arrAt_in 1 rfl _).trans ((A_eq1 (V2 m) q1 c 1).trans (V3_of m c main_v5 (by decide) (by decide)).symm))
        (((dat1 (V2 m) q1 c).arrAt_in 2 rfl _).trans ((A_eq1 (V2 m) q1 c 2).trans (V3_of m c main_v5 (by decide) (by decide)).symm))
        (((dat1 (V2 m) q1 c).arrAt_in 3 rfl _).trans ((A_eq1 (V2 m) q1 c 3).trans (V3_of m c main_v3 (by decide) (by decide)).symm))
        (((dat1 (V2 m) q1 c).arrAt_in 4 rfl _).trans ((A_eq1 (V2 m) q1 c 4).trans (V3_of m c main_arg4 (by decide) (by decide)).symm))
        (V3_v6_0 m c).symm (V3_v6_1 m c).symm
        (fun b hb => V3_of m c b (fun e => hb (e ▸ Finset.mem_image.mpr ⟨5, Finset.mem_univ _, rfl⟩)) (fun e => hb (e ▸ Finset.mem_image.mpr ⟨6, Finset.mem_univ _, rfl⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region three: the projected hidden layer, read through two windows, is split on entry and joined on exit. -/
def reg2 : Pipeline.RegionSeg (pcfgs (F := F)) Gen.adm (pdats m) () defs₀ 𝒱₀ Lz lvz 2 where
  win := winFacts₀2
  block_pos := block_pos2
  stage_whole := stage_whole2
  K := PEmpty
  osem k := k.elim
  ho := Pipeline.OwnSemFacts.none _
  hbody c := (body_obligation2 (V3 m) q2 c).loose
  hwaits := Pipeline.hwaits_of_owed_zero _ _ _ _ Lz lvz 2 fun _ _ => rfl
  pre c := iprop(StableHlo.held (c : Thread nD τ) (Pipeline.ucRefs τ sig) (W3 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit : (unscopedBufs c (V3 m c) : sProp 𝕄) ⊢ iprop((pdats m 2 c).arrays (fun x => (pdats m 2 c).arrAt x 0) ∗ Pipeline.unscopedRest spec2 c (V3 m c)) :=
      entry2 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays (fun x => (pdats m 2 c).arrAt x cfg2.N) ∗ Pipeline.unscopedRest spec2 c (V3 m c)) ⊢ (unscopedBufs c (V4 m c) : sProp 𝕄) :=
      exit2 (V3 m) c (V4 m c) _
        (((dat2 (V3 m) q2 c).arrAt_in 0 rfl _).trans ((A_eq2 (V3 m) q2 c 0).trans (V4_of m c main_v6_1 (by decide)).symm))
        (((dat2 (V3 m) q2 c).arrAt_in 1 rfl _).trans ((A_eq2 (V3 m) q2 c 1).trans (V4_of m c main_v6_0 (by decide)).symm))
        (((dat2 (V3 m) q2 c).arrAt_in 2 rfl _).trans ((A_eq2 (V3 m) q2 c 2).trans (V4_of m c main_v6_0 (by decide)).symm))
        (((dat2 (V3 m) q2 c).arrAt_in 3 rfl _).trans ((A_eq2 (V3 m) q2 c 3).trans (V4_of m c main_v4 (by decide)).symm))
        (V4_v7 m c).symm
        (fun b hb => V4_of m c b fun e => hb (e ▸ Finset.mem_image.mpr ⟨4, Finset.mem_univ _, rfl⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The host stretch as a segment over the buffers from their launch contents. -/
abbrev hseg0 : Pipeline.HostSeg (Name := ℕ) (U := UR sig nD τ) (pcfgs (F := F)) defs₀ 𝒱₀ Lz lvz :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R

abbrev segs : List (Pipeline.Seg (pcfgs (F := F)) Gen.adm (pdats m) () defs₀ 𝒱₀ Lz lvz) :=
  [ .host (hseg0 m), .region (reg0 m), .region (reg1 m), .region (reg2 m) ]

theorem main_run (c : Dev nD) : main (F := F) c = Pipeline.Seg.run (segs m) := (main_chain c).trans (by chain_rfl)

set_option backward.isDefEq.respectTransparency.types false in
/-- THE RUN: from any memory with zero counters every weakly fair execution terminates, nothing faulting; the result
    buffer ends at what region three wrote and every argument as launched. -/
theorem run : θ_run defs (onTc (τ := τ) (main (F := F))) ⟨m, fun _ => 0, ρ⟩ (fun r => ∀ c : Dev nD,
      r.2.mem ((c.tc : Thread nD τ).loc main_v7) = resO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (V4_v7 m c),
       (h c _ (mem_uc main_arg0 (by decide))).trans (V4_arg m c main_arg0 (by decide) (by decide) (by decide) (by decide) (by decide)),
       (h c _ (mem_uc main_arg1 (by decide))).trans (V4_arg m c main_arg1 (by decide) (by decide) (by decide) (by decide) (by decide)),
       (h c _ (mem_uc main_arg2 (by decide))).trans (V4_arg m c main_arg2 (by decide) (by decide) (by decide) (by decide) (by decide)),
       (h c _ (mem_uc main_arg3 (by decide))).trans (V4_arg m c main_arg3 (by decide) (by decide) (by decide) (by decide) (by decide)),
       (h c _ (mem_uc main_arg4 (by decide))).trans (V4_arg m c main_arg4 (by decide) (by decide) (by decide) (by decide) (by decide)),
       (h c _ (mem_uc main_arg5 (by decide))).trans (V4_arg m c main_arg5 (by decide) (by decide) (by decide) (by decide) (by decide))⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.KernelIdeal.Hand

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.Spec.lean ====
/-
  The computation as three stages over the extended reals, entry by entry.

  With x of shape 2 x N x 256, hg of shape N x N, W1 of shape 256 x 256, b1 of length 256, W2 of shape 512 x 40 and
  b2 of length 40 (N = 10000):

    V (r, j)   = sum over a of x (j / 256, r, a) * W1 (a, j % 256)                      -- both inputs projected, side by side
    h (r, j)   = max (sum over n of hg (r, n) * V (n, j)  +  V (r, j)  +  b1 (j % 256)) 0
    U (r, o)   = sum over j of h (r, j) * W2 (j, o)
    out (r, o) = sum over n of hg (r, n) * U (n, o)  +  U (r, o)  +  b2 o

  Column j of the 512 projected columns belongs to input j / 256 and is its column j % 256. The bound of the maximum is
  the float zero word, kept as that word.
-/
import Idealize.ShloMosaic.PureOps.Ideal
import Idealize.ShloMosaic.Lib.ValueIdx

noncomputable section

open scoped BigOperators

namespace Cert.Gin

open Idealize.ShloMosaic Idealize.ShloMosaic.ValueIdx

/-- Which of the two inputs column `j` of the projected features belongs to. -/
def colK (j : Fin 512) : Fin 2 := ⟨j.val / 256, by omega⟩
/-- Which of that input's 256 columns it is. -/
def colJ (j : Fin 512) : Fin 256 := ⟨j.val % 256, by omega⟩

/-- The float zero word read as an extended real, left unevaluated. -/
abbrev zeroWord : EReal := Ideal.ofBits .f32 0x00000000#32

/-- Stage one: both inputs projected through W1, side by side. -/
def stageV (x : (⟨3, ![2, 10000, 256]⟩ : Shape).Idx → EReal) (w1 : (⟨2, ![256, 256]⟩ : Shape).Idx → EReal)
    (r : Fin 10000) (j : Fin 512) : EReal :=
  ∑ a : Fin 256, x (ix3 (colK j) r a) * w1 (ix2 a (colJ j))

/-- The hidden layer from the projected features: neighbourhood sum, the row itself, the bias, clipped below. -/
def hidden (hg : (⟨2, ![10000, 10000]⟩ : Shape).Idx → EReal) (V : Fin 10000 → Fin 512 → EReal)
    (b1 : (⟨1, ![256]⟩ : Shape).Idx → EReal) (r : Fin 10000) (j : Fin 512) : EReal :=
  max ((∑ n : Fin 10000, hg (ix2 r n) * V n j) + V r j + b1 (ix1 (colJ j))) zeroWord

/-- Stage two: the hidden layer projected through W2. -/
def stageU (hg : (⟨2, ![10000, 10000]⟩ : Shape).Idx → EReal) (V : Fin 10000 → Fin 512 → EReal)
    (b1 : (⟨1, ![256]⟩ : Shape).Idx → EReal) (w2 : (⟨2, ![512, 40]⟩ : Shape).Idx → EReal)
    (r : Fin 10000) (o : Fin 40) : EReal :=
  ∑ j : Fin 512, hidden hg V b1 r j * w2 (ix2 j o)

/-- Stage three: neighbourhood sum of the projected hidden layer, the row itself, the bias. -/
def stageO (hg : (⟨2, ![10000, 10000]⟩ : Shape).Idx → EReal) (U : Fin 10000 → Fin 40 → EReal)
    (b2 : (⟨1, ![40]⟩ : Shape).Idx → EReal) (r : Fin 10000) (o : Fin 40) : EReal :=
  (∑ n : Fin 10000, hg (ix2 r n) * U n o) + U r o + b2 (ix1 o)

/-- The three stages composed: the result at entry (r, o) from the six arguments. -/
def result (x : (⟨3, ![2, 10000, 256]⟩ : Shape).Idx → EReal) (hg : (⟨2, ![10000, 10000]⟩ : Shape).Idx → EReal)
    (w1 : (⟨2, ![256, 256]⟩ : Shape).Idx → EReal) (b1 : (⟨1, ![256]⟩ : Shape).Idx → EReal)
    (w2 : (⟨2, ![512, 40]⟩ : Shape).Idx → EReal) (b2 : (⟨1, ![40]⟩ : Shape).Idx → EReal)
    (r : Fin 10000) (o : Fin 40) : EReal :=
  stageO hg (stageU hg (stageV x w1) b1 w2) b2 r o

/-- The result as an array of shape N x 40. -/
def resultArr (x : (⟨3, ![2, 10000, 256]⟩ : Shape).Idx → EReal) (hg : (⟨2, ![10000, 10000]⟩ : Shape).Idx → EReal)
    (w1 : (⟨2, ![256, 256]⟩ : Shape).Idx → EReal) (b1 : (⟨1, ![256]⟩ : Shape).Idx → EReal)
    (w2 : (⟨2, ![512, 40]⟩ : Shape).Idx → EReal) (b2 : (⟨1, ![40]⟩ : Shape).Idx → EReal) :
    (⟨2, ![10000, 40]⟩ : Shape).Idx → EReal :=
  fun i => result x hg w1 b1 w2 b2 (i 0) (i 1)

end Cert.Gin

end
-- ==== Proof.KiValue0.lean ====
/-
  The first kernel region, read: every grid point writes back rows 2000 t … 2000 t + 1999 of the projected features

    V (r, j) = sum over a of x (j / 256, r, a) * W1 (a, j % 256),

  its block stored as two halves: columns 0 to 255 from the first input, columns 256 to 511 from the second. The five row
  blocks tile the array.
-/
import proofs.«161026_g21131239096597_cont_8to1_6_7_alg».proof.Proof.KiBody0
import proofs.«161026_g21131239096597_cont_8to1_6_7_alg».proof.Proof.LibMatmul
import proofs.«161026_g21131239096597_cont_8to1_6_7_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Value

open Cert.KernelIdeal Cert.KernelIdeal.Gen Cert.KernelIdeal.Hand Idealize.ShloMosaic Idealize.ShloMosaic.TcCoe
  Idealize.ShloMosaic.ValueIdx Idealize.SL Idealize.SL.RA Idealize.SL.Sem
open Idealize.ShloMosaic.Pipeline (Dat)

theorem hz0 : (![0, 0] : Fin 2 → Nat) = fun _ => 0 := funext fun a => by fin_cases a <;> rfl

/-! ## The body's payloads at an entry -/

theorem d0_lhs0 (i : S2000x256.Idx) (q : dot_S2000x256_S256x256_S2000x256_1_0_0_1_n_n.contr.Idx) :
    (dot_S2000x256_S256x256_S2000x256_1_0_0_1_n_n.lhsIdx i q (0 : Fin 2)).val = (i (0 : Fin 2)).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem d0_rhs1 (i : S2000x256.Idx) (q : dot_S2000x256_S256x256_S2000x256_1_0_0_1_n_n.contr.Idx) :
    (dot_S2000x256_S256x256_S2000x256_1_0_0_1_n_n.rhsIdx i q (1 : Fin 2)).val = (i (1 : Fin 2)).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- A one-input slab of 2000 rows reshaped to rows and columns. -/
theorem slab_at (v0 : Vec Ideal S1x2000x256 .f32) (p : Fin 2000) (a : Fin 256) :
    shapeCast S2000x256 v0 shapeCasts_S1x2000x256_S2000x256 (ix2 p a) = v0 (ix3 (0 : Fin 1) p a) :=
  shapeCast_apply v0 shapeCasts_S1x2000x256_S2000x256 (ix2 p a) (ix3 (0 : Fin 1) p a) (by
    rw [Shape.rowMajor_val_three, Shape.rowMajor_val_two]
    show (0 * 2000 + p.val) * 256 + a.val = p.val * 256 + a.val
    omega)

/-- The payload of the first stored half at entry (p, j): row p of the slab against column j of W1. -/
theorem pay0a_at (v0 : Vec Ideal S1x2000x256 .f32) (v2 : Vec Ideal S256x256 .f32) (p : Fin 2000) (j : Fin 256) :
    k0_pay1 (F := Ideal) v0 v2 (ix2 p j) = ∑ a : Fin 256, v0 (ix3 (0 : Fin 1) p a) * v2 (ix2 a j) := by
  unfold k0_pay1
  simp only [matmul]
  rw [truncf_apply, Cert.LibMatmul.matmul_zero_ix2 dot_S2000x256_S256x256_S2000x256_1_0_0_1_n_n rfl rfl d0_lhs0
      (fun i q => dot_S2000x256_S256x256_S2000x256_1_0_0_1_n_n.lhsIdx_val_of_single rfl i q)
      (fun i q => dot_S2000x256_S256x256_S2000x256_1_0_0_1_n_n.rhsIdx_val_of_single rfl i q) d0_rhs1]
  exact Finset.sum_congr rfl fun a _ => congrArg (· * v2 (ix2 a j)) (slab_at v0 p a)

/-- The payload of the second stored half at entry (p, j): the same product. -/
theorem pay0b_at (v0 : Vec Ideal S1x2000x256 .f32) (v2 : Vec Ideal S256x256 .f32) (p : Fin 2000) (j : Fin 256) :
    k0_pay2 (F := Ideal) v0 v2 (ix2 p j) = ∑ a : Fin 256, v0 (ix3 (0 : Fin 1) p a) * v2 (ix2 a j) := by
  unfold k0_pay2
  simp only [matmul]
  rw [truncf_apply, Cert.LibMatmul.matmul_zero_ix2 dot_S2000x256_S256x256_S2000x256_1_0_0_1_n_n rfl rfl d0_lhs0
      (fun i q => dot_S2000x256_S256x256_S2000x256_1_0_0_1_n_n.lhsIdx_val_of_single rfl i q)
      (fun i q => dot_S2000x256_S256x256_S2000x256_1_0_0_1_n_n.rhsIdx_val_of_single rfl i q) d0_rhs1]
  exact Finset.sum_congr rfl fun a _ => congrArg (· * v2 (ix2 a j)) (slab_at v0 p a)

/-! ## The output block: two stored halves, one function -/

/-- The output block as one function of the loaded input block and weights. -/
def B0 (x0 : Vec Ideal S2x2000x256 .f32) (x1 : Vec Ideal S256x256 .f32) : S2000x512.Idx → EReal :=
  fun y => ∑ a : Fin 256, x0 (ix3 (Cert.Gin.colK (y 1)) (y 0) a) * x1 (ix2 a (Cert.Gin.colJ (y 1)))

/-- The first stored half (columns 0 to 255, from the first input) is that function on its rectangle. -/
theorem half0_agrees (x0 : Vec Ideal S2x2000x256 .f32) (x1 : Vec Ideal S256x256 .f32) (x : ro0.shape.Idx) :
    k0_pay1 (F := Ideal) (View.ld x0 rx0) (View.ld x1 rw1) x = B0 x0 x1 (ro0.emb x) := by
  obtain ⟨p, j, rfl⟩ : ∃ (p : Fin 2000) (j : Fin 256), x = ix2 p j := ⟨x 0, x 1, eq_ix2 x⟩
  have hp := p.isLt; have hj := j.isLt
  rw [pay0a_at]
  unfold B0
  refine Finset.sum_congr rfl fun a _ => ?_
  show x0 (rx0.idx (ix3 (0 : Fin 1) p a)) * x1 (rw1.idx (ix2 a j)) = _
  refine congrArg₂ (· * ·) (congrArg x0 (funext fun b => Fin.ext ?_)) (congrArg x1 (funext fun b => Fin.ext ?_))
  · match b with
    | ⟨0, _⟩ => show 0 + 1 * 0 = (0 + 1 * j.val) / 256; omega
    | ⟨1, _⟩ => show 0 + 1 * p.val = 0 + 1 * p.val; rfl
    | ⟨2, _⟩ => show 0 + 1 * a.val = a.val; omega
  · match b with
    | ⟨0, _⟩ => show 0 + 1 * a.val = a.val; omega
    | ⟨1, _⟩ => show 0 + 1 * j.val = (0 + 1 * j.val) % 256; omega

/-- The second stored half (columns 256 to 511, from the second input) is that function on its rectangle. -/
theorem half1_agrees (x0 : Vec Ideal S2x2000x256 .f32) (x1 : Vec Ideal S256x256 .f32) (x : ro1.shape.Idx) :
    k0_pay2 (F := Ideal) (View.ld x0 rx1) (View.ld x1 rw1) x = B0 x0 x1 (ro1.emb x) := by
  obtain ⟨p, j, rfl⟩ : ∃ (p : Fin 2000) (j : Fin 256), x = ix2 p j := ⟨x 0, x 1, eq_ix2 x⟩
  have hp := p.isLt; have hj := j.isLt
  rw [pay0b_at]
  unfold B0
  refine Finset.sum_congr rfl fun a _ => ?_
  show x0 (rx1.idx (ix3 (0 : Fin 1) p a)) * x1 (rw1.idx (ix2 a j)) = _
  refine congrArg₂ (· * ·) (congrArg x0 (funext fun b => Fin.ext ?_)) (congrArg x1 (funext fun b => Fin.ext ?_))
  · match b with
    | ⟨0, _⟩ => show 1 + 1 * 0 = (256 + 1 * j.val) / 256; omega
    | ⟨1, _⟩ => show 0 + 1 * p.val = 0 + 1 * p.val; rfl
    | ⟨2, _⟩ => show 0 + 1 * a.val = a.val; omega
  · match b with
    | ⟨0, _⟩ => show 0 + 1 * a.val = a.val; omega
    | ⟨1, _⟩ => show 0 + 1 * j.val = (256 + 1 * j.val) % 256; omega

/-- The output block after the body, at entry (p, j). -/
theorem out0_at (x0 : Vec Ideal S2x2000x256 .f32) (x1 : Vec Ideal S256x256 .f32) (p : Fin 2000) (j : Fin 512) :
    out0_2 (F := Ideal) x0 x1 (ix2 p j)
      = ∑ a : Fin 256, x0 (ix3 (Cert.Gin.colK j) p a) * x1 (ix2 a (Cert.Gin.colJ j)) := by
  unfold out0_2
  refine (View.canon_apply_of_pieces (B0 x0 x1) _ (fun pc hpc x => ?_) (ix2 p j) (cover0_2 _ _ (ix2 p j))).trans rfl
  simp only [List.mem_cons, List.not_mem_nil, or_false] at hpc
  rcases hpc with rfl | rfl
  · exact half1_agrees x0 x1 x
  · exact half0_agrees x0 x1 x

/-! ## From blocks to the array -/

/-- What the projected features end holding, entry by entry, from the two inputs and the first weight matrix. -/
def G0 (x : S2x10000x256.Idx → EReal) (w1 : S256x256.Idx → EReal) : S10000x512.Idx → EReal :=
  fun i => Cert.Gin.stageV x w1 (i 0) (i 1)

variable (V : (c : Dev nD) → (b : Ref sig .tc) → Buf (Elt Ideal) ((c : Thread nD τ).loc b))

/-- The printed index maps over the grid: the inputs' rows and the result's rows move with the point; the weights stay. -/
theorem idx_facts0 : ∀ t : Fin cfg0.N, win0_0.index t (0 : Fin 3) = 0 ∧ win0_0.index t (1 : Fin 3) = t.val
    ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projected features. -/
theorem flushed0_eq (c : Dev nD) (t : Fin cfg0.N) :
    (dat0 (F := Ideal) V c).flushed 2 t
      = ((cfg0.win 2).blk t).view.read (Elt Ideal) (G0 (V c main_arg0) (V c main_arg2)) := by
  show (cfg0.win 2).cut (grid0.coords t) ((dat0 (F := Ideal) V c).after 2 t) = _
  rw [after0_2]
  obtain ⟨e00, e01, e02, e10, e11, e20, e21⟩ := idx_facts0 t
  funext y
  obtain ⟨p, j, rfl⟩ : ∃ (p : Fin 2000) (j : Fin 512), y = ix2 p j := ⟨y 0, y 1, eq_ix2 y⟩
  show out0_2 (F := Ideal) (iblk0 V c 0 t) (iblk0 V c 1 t) (ix2 p j)
    = G0 (V c main_arg0) (V c main_arg2) (((cfg0.win 2).blk t).view.emb (ix2 p j))
  refine (out0_at _ _ p j).trans ?_
  have hp := p.isLt; have hj := j.isLt
  have h0 : ∀ a : Fin 256, ((cfg0.win 0).blk t).view.emb (ix3 (Cert.Gin.colK j) p a)
      = ix3 (Cert.Gin.colK ((((cfg0.win 2).blk t).view.emb (ix2 p j)) 1)) ((((cfg0.win 2).blk t).view.emb (ix2 p j)) 0) a := fun a => by
    funext b; apply Fin.ext
    match b with
    | ⟨0, _⟩ =>
      show win0_0.index t (0 : Fin 3) * 2 + 1 * (j.val / 256) = (win0_2.index t (1 : Fin 2) * 512 + 1 * j.val) / 256
      omega
    | ⟨1, _⟩ =>
      show win0_0.index t (1 : Fin 3) * 2000 + 1 * p.val = win0_2.index t (0 : Fin 2) * 2000 + 1 * p.val
      omega
    | ⟨2, _⟩ => show win0_0.index t (2 : Fin 3) * 256 + 1 * a.val = a.val; omega
  have h1 : ∀ a : Fin 256, ((cfg0.win 1).blk t).view.emb (ix2 a (Cert.Gin.colJ j))
      = ix2 a (Cert.Gin.colJ ((((cfg0.win 2).blk t).view.emb (ix2 p j)) 1)) := fun a => by
    funext b; apply Fin.ext
    match b with
    | ⟨0, _⟩ => show win0_1.index t (0 : Fin 2) * 256 + 1 * a.val = a.val; omega
    | ⟨1, _⟩ =>
      show win0_1.index t (1 : Fin 2) * 256 + 1 * (j.val % 256) = (win0_2.index t (1 : Fin 2) * 512 + 1 * j.val) % 256
      omega
  have key : ∀ (x : S2x10000x256.Idx → EReal) (w1 : S256x256.Idx → EReal),
      (∑ a : Fin 256, x (((cfg0.win 0).blk t).view.emb (ix3 (Cert.Gin.colK j) p a))
          * w1 (((cfg0.win 1).blk t).view.emb (ix2 a (Cert.Gin.colJ j))))
      = G0 x w1 (((cfg0.win 2).blk t).view.emb (ix2 p j)) := fun x w1 =>
    (Finset.sum_congr rfl fun a _ => congrArg₂ (· * ·) (congrArg x (h0 a)) (congrArg w1 (h1 a))).trans rfl
  exact key (V c main_arg0) (V c main_arg2)

/-- An index of the projected features is in point t's block iff each coordinate is in the block's range. -/
theorem mem_blk0 (t : Fin cfg0.N) (i : S10000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v5).slice (win0_2.rect t)).set ↔ _
  rw [View.set_slice_whole, Rect.mem_set_unit]
  exact Iff.rfl

/-- The five row blocks tile the projected features: row r is in the block of point r / 2000. -/
theorem cover0 (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  obtain ⟨t, ht⟩ : ∃ t : Fin cfg0.N, t.val = (i 0).val / 2000 :=
    ⟨⟨(i 0).val / 2000, (show (i 0).val / 2000 < 5 by omega).trans_eq N_0.symm⟩, rfl⟩
  refine ⟨t, flush0_2 t, ?_⟩
  obtain ⟨e00, e01, e02, e10, e11, e20, e21⟩ := idx_facts0 t
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 512 ≤ (i 1).val ∧ (i 1).val < win0_2.index t (1 : Fin 2) * 512 + 512
    omega

/-- The projected features after the region: both inputs projected through W1, side by side. -/
theorem final0 (c : Dev nD) : (dat0 (F := Ideal) V c).arrAt 2 cfg0.N = G0 (V c main_arg0) (V c main_arg2) :=
  (dat0 (F := Ideal) V c).arrAt_eq_of_cover 2 (G0 (V c main_arg0) (V c main_arg2)) (fun t _ => flushed0_eq V c t) cover0

end Cert.KernelIdeal.Value

end
-- ==== Proof.KiValue1.lean ====
/-
  The second kernel region, read: every grid point writes back rows 200 t … 200 t + 199 of

    U (r, o) = sum over j of max (sum over n of hg (r, n) * V (n, j)  +  V (r, j)  +  b (0, j)) 0 * W2 (j, o),

  where hg is the graph matrix, V the projected features, b the first bias as a one-row matrix over the 512 columns and
  the bound of the maximum the float zero word; and copies its stripe of the graph matrix out unchanged. The fifty row
  blocks tile both results.
-/
import proofs.«161026_g21131239096597_cont_8to1_6_7_alg».proof.Proof.KiBody1
import proofs.«161026_g21131239096597_cont_8to1_6_7_alg».proof.Proof.LibMatmul
import proofs.«161026_g21131239096597_cont_8to1_6_7_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Value

open Cert.KernelIdeal Cert.KernelIdeal.Gen Cert.KernelIdeal.Hand Idealize.ShloMosaic Idealize.ShloMosaic.TcCoe
  Idealize.ShloMosaic.ValueIdx Idealize.SL Idealize.SL.RA Idealize.SL.Sem
open Idealize.ShloMosaic.Pipeline (Dat)

theorem hz1 : (![0, 0] : Fin 2 → Nat) = fun _ => 0 := funext fun a => by fin_cases a <;> rfl

/-! ## The body's payloads at an entry -/

theorem d1a_lhs0 (i : S200x512.Idx) (q : dot_S200x10000_S10000x512_S200x512_1_0_0_1_n_n.contr.Idx) :
    (dot_S200x10000_S10000x512_S200x512_1_0_0_1_n_n.lhsIdx i q (0 : Fin 2)).val = (i (0 : Fin 2)).val := by
  unfold DotDims.lhsIdx
  rw [dif_neg (show ¬(0 : Fin S200x10000.rank) ∈ dot_S200x10000_S10000x512_S200x512_1_0_0_1_n_n.lhsBatch by decide),
    dif_pos (show (0 : Fin S200x10000.rank) ∈ dot_S200x10000_S10000x512_S200x512_1_0_0_1_n_n.lhsNonContracting by decide)]
  rfl
theorem d1a_rhs1 (i : S200x512.Idx) (q : dot_S200x10000_S10000x512_S200x512_1_0_0_1_n_n.contr.Idx) :
    (dot_S200x10000_S10000x512_S200x512_1_0_0_1_n_n.rhsIdx i q (1 : Fin 2)).val = (i (1 : Fin 2)).val := by
  unfold DotDims.rhsIdx
  rw [dif_neg (show ¬(1 : Fin S10000x512.rank) ∈ dot_S200x10000_S10000x512_S200x512_1_0_0_1_n_n.rhsBatch by decide),
    dif_pos (show (1 : Fin S10000x512.rank) ∈ dot_S200x10000_S10000x512_S200x512_1_0_0_1_n_n.rhsNonContracting by decide)]
  rfl

theorem d1b_lhs0 (i : S200x40.Idx) (q : dot_S200x512_S512x40_S200x40_1_0_0_1_n_n.contr.Idx) :
    (dot_S200x512_S512x40_S200x40_1_0_0_1_n_n.lhsIdx i q (0 : Fin 2)).val = (i (0 : Fin 2)).val := by
  unfold DotDims.lhsIdx
  rw [dif_neg (show ¬(0 : Fin S200x512.rank) ∈ dot_S200x512_S512x40_S200x40_1_0_0_1_n_n.lhsBatch by decide),
    dif_pos (show (0 : Fin S200x512.rank) ∈ dot_S200x512_S512x40_S200x40_1_0_0_1_n_n.lhsNonContracting by decide)]
  rfl
theorem d1b_rhs1 (i : S200x40.Idx) (q : dot_S200x512_S512x40_S200x40_1_0_0_1_n_n.contr.Idx) :
    (dot_S200x512_S512x40_S200x40_1_0_0_1_n_n.rhsIdx i q (1 : Fin 2)).val = (i (1 : Fin 2)).val := by
  unfold DotDims.rhsIdx
  rw [dif_neg (show ¬(1 : Fin S512x40.rank) ∈ dot_S200x512_S512x40_S200x40_1_0_0_1_n_n.rhsBatch by decide),
    dif_pos (show (1 : Fin S512x40.rank) ∈ dot_S200x512_S512x40_S200x40_1_0_0_1_n_n.rhsNonContracting by decide)]
  rfl

/-- The payload stored into the projected hidden layer, at entry (p, o) of the block. -/
theorem pay1u_at (x0 : Vec Ideal S200x10000 .f32) (x1 : Vec Ideal S10000x512 .bf16) (x2 : Vec Ideal S200x512 .bf16)
    (x3 : Vec Ideal S1x512 .f32) (x4 : Vec Ideal S512x40 .f32) (p : Fin 200) (o : Fin 40) :
    k1_pay2 (F := Ideal) x0 x1 x2 x3 x4 (ix2 p o)
      = ∑ j : Fin 512, max ((∑ n : Fin 10000, x0 (ix2 p n) * x1 (ix2 n j)) + x2 (ix2 p j) + x3 (ix2 (0 : Fin 1) j))
          Cert.Gin.zeroWord * x4 (ix2 j o) := by
  unfold k1_pay2 k1_pay1
  simp only [shapeCast_self, matmul]
  rw [Cert.LibMatmul.matmul_zero_ix2 dot_S200x512_S512x40_S200x40_1_0_0_1_n_n rfl rfl d1b_lhs0
      (fun i q => dot_S200x512_S512x40_S200x40_1_0_0_1_n_n.lhsIdx_val_of_single rfl i q)
      (fun i q => dot_S200x512_S512x40_S200x40_1_0_0_1_n_n.rhsIdx_val_of_single rfl i q) d1b_rhs1]
  refine Finset.sum_congr rfl fun j _ => ?_
  rw [maximumf_apply, addf_apply, addf_apply, broadcast_apply, extf_apply,
    Cert.LibMatmul.matmul_zero_ix2 dot_S200x10000_S10000x512_S200x512_1_0_0_1_n_n rfl rfl d1a_lhs0
      (fun i q => dot_S200x10000_S10000x512_S200x512_1_0_0_1_n_n.lhsIdx_val_of_single rfl i q)
      (fun i q => dot_S200x10000_S10000x512_S200x512_1_0_0_1_n_n.rhsIdx_val_of_single rfl i q) d1a_rhs1,
    broadcastTo_apply x3 broadcasts_S1x512_S200x512 (ix2 p j) (ix2 (0 : Fin 1) j)
      (fun a => match a with | ⟨0, _⟩ => rfl | ⟨1, _⟩ => rfl)]
  rfl

/-- The payload stored into the copy of the graph matrix: the stripe itself. -/
theorem pay1h_eq (x0 : Vec Ideal S200x10000 .f32) : k1_pay1 (F := Ideal) x0 = x0 := rfl

/-! ## From blocks to the arrays -/

/-- What the projected hidden layer ends holding, entry by entry, from the graph matrix, the projected features, the
    one-row bias and the second weight matrix. -/
def G1u (hg : S10000x10000.Idx → EReal) (Vv : S10000x512.Idx → EReal) (b : S1x512.Idx → EReal)
    (w2 : S512x40.Idx → EReal) : S10000x40.Idx → EReal :=
  fun i => ∑ j : Fin 512, max ((∑ n : Fin 10000, hg (ix2 (i 0) n) * Vv (ix2 n j)) + Vv (ix2 (i 0) j) + b (ix2 (0 : Fin 1) j))
    Cert.Gin.zeroWord * w2 (ix2 j (i 1))

variable (V : (c : Dev nD) → (b : Ref sig .tc) → Buf (Elt Ideal) ((c : Thread nD τ).loc b))
variable (q : Fin cfg1.W → PosShare TreeShare)

/-- The printed index maps over the grid: the stripe of the graph matrix, the stripe's own rows of the projected
    features and the two results move with the point; the whole projected features, the bias and the weights stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- What point t writes back into the projected hidden layer is block t of it. -/
theorem flushed1u_eq (c : Dev nD) (t : Fin cfg1.N) :
    (dat1 (F := Ideal) V q c).flushed 5 t
      = ((cfg1.win 5).blk t).view.read (Elt Ideal) (G1u (V c main_arg1) (V c main_v5) (V c main_v3) (V c main_arg4)) := by
  show (cfg1.win 5).cut (grid1.coords t) ((dat1 (F := Ideal) V q c).after 5 t) = _
  rw [after1_5]
  unfold out1_5
  rw [View.canon_unit_zero hz1]
  simp only [View.ld_unit_zero (S := S200x10000) hz1, View.ld_unit_zero (S := S10000x512) hz1,
    View.ld_unit_zero (S := S200x512) hz1, View.ld_unit_zero (S := S1x512) hz1, View.ld_unit_zero (S := S512x40) hz1]
  obtain ⟨e00, e01, e10, e11, e20, e21, e30, e31, e40, e41, e50, e51, e60, e61⟩ := idx_facts1 t
  funext j
  obtain ⟨p, o, rfl⟩ : ∃ (p : Fin 200) (o : Fin 40), j = ix2 p o := ⟨j 0, j 1, eq_ix2 j⟩
  show k1_pay2 (F := Ideal) (iblk1 V c 0 t) (iblk1 V c 1 t) (iblk1 V c 2 t) (iblk1 V c 3 t) (iblk1 V c 4 t) (ix2 p o)
    = G1u (V c main_arg1) (V c main_v5) (V c main_v3) (V c main_arg4) (((cfg1.win 5).blk t).view.emb (ix2 p o))
  refine (pay1u_at _ _ _ _ _ p o).trans ?_
  have hp := p.isLt; have ho := o.isLt
  have h0 : ∀ n : Fin 10000, ((cfg1.win 0).blk t).view.emb (ix2 p n) = ix2 ((((cfg1.win 5).blk t).view.emb (ix2 p o)) 0) n := fun n => by
    funext a; apply Fin.ext
    match a with
    | ⟨0, _⟩ => show win1_0.index t (0 : Fin 2) * 200 + 1 * p.val = win1_5.index t (0 : Fin 2) * 200 + 1 * p.val; omega
    | ⟨1, _⟩ => show win1_0.index t (1 : Fin 2) * 10000 + 1 * n.val = n.val; omega
  have h1 : ∀ (n : Fin 10000) (j : Fin 512), ((cfg1.win 1).blk t).view.emb (ix2 n j) = ix2 n j := fun n j => by
    funext a; apply Fin.ext
    match a with
    | ⟨0, _⟩ => show win1_1.index t (0 : Fin 2) * 10000 + 1 * n.val = n.val; omega
    | ⟨1, _⟩ => show win1_1.index t (1 : Fin 2) * 512 + 1 * j.val = j.val; omega
  have h2 : ∀ j : Fin 512, ((cfg1.win 2).blk t).view.emb (ix2 p j) = ix2 ((((cfg1.win 5).blk t).view.emb (ix2 p o)) 0) j := fun j => by
    funext a; apply Fin.ext
    match a with
    | ⟨0, _⟩ => show win1_2.index t (0 : Fin 2) * 200 + 1 * p.val = win1_5.index t (0 : Fin 2) * 200 + 1 * p.val; omega
    | ⟨1, _⟩ => show win1_2.index t (1 : Fin 2) * 512 + 1 * j.val = j.val; omega
  have h3 : ∀ j : Fin 512, ((cfg1.win 3).blk t).view.emb (ix2 (0 : Fin 1) j) = ix2 (0 : Fin 1) j := fun j => by
    funext a; apply Fin.ext
    match a with
    | ⟨0, _⟩ => show win1_3.index t (0 : Fin 2) * 1 + 1 * 0 = 0; omega
    | ⟨1, _⟩ => show win1_3.index t (1 : Fin 2) * 512 + 1 * j.val = j.val; omega
  have h4 : ∀ j : Fin 512, ((cfg1.win 4).blk t).view.emb (ix2 j o) = ix2 j ((((cfg1.win 5).blk t).view.emb (ix2 p o)) 1) := fun j => by
    funext a; apply Fin.ext
    match a with
    | ⟨0, _⟩ => show win1_4.index t (0 : Fin 2) * 512 + 1 * j.val = j.val; omega
    | ⟨1, _⟩ => show win1_4.index t (1 : Fin 2) * 40 + 1 * o.val = win1_5.index t (1 : Fin 2) * 40 + 1 * o.val; omega
  have key : ∀ (hg : S10000x10000.Idx → EReal) (Vv : S10000x512.Idx → EReal) (b : S1x512.Idx → EReal)
      (w2 : S512x40.Idx → EReal),
      (∑ j : Fin 512, max ((∑ n : Fin 10000, hg (((cfg1.win 0).blk t).view.emb (ix2 p n))
              * Vv (((cfg1.win 1).blk t).view.emb (ix2 n j)))
            + Vv (((cfg1.win 2).blk t).view.emb (ix2 p j)) + b (((cfg1.win 3).blk t).view.emb (ix2 (0 : Fin 1) j)))
          Cert.Gin.zeroWord * w2 (((cfg1.win 4).blk t).view.emb (ix2 j o)))
      = G1u hg Vv b w2 (((cfg1.win 5).blk t).view.emb (ix2 p o)) := fun hg Vv b w2 =>
    (Finset.sum_congr rfl fun j _ =>
      congrArg₂ (· * ·)
        (congrArg (fun z => max z Cert.Gin.zeroWord)
          (congrArg₂ (· + ·)
            (congrArg₂ (· + ·)
              (Finset.sum_congr rfl fun n _ => congrArg₂ (· * ·) (congrArg hg (h0 n)) (congrArg Vv (h1 n j)))
              (congrArg Vv (h2 j)))
            (congrArg b (h3 j))))
        (congrArg w2 (h4 j))).trans rfl
  exact key (V c main_arg1) (V c main_v5) (V c main_v3) (V c main_arg4)

/-- What point t writes back into the copy of the graph matrix is block t of the graph matrix. -/
theorem flushed1h_eq (c : Dev nD) (t : Fin cfg1.N) :
    (dat1 (F := Ideal) V q c).flushed 6 t = ((cfg1.win 6).blk t).view.read (Elt Ideal) (V c main_arg1) := by
  show (cfg1.win 6).cut (grid1.coords t) ((dat1 (F := Ideal) V q c).after 6 t) = _
  rw [after1_6]
  unfold out1_6
  rw [View.canon_unit_zero hz1]
  simp only [View.ld_unit_zero (S := S200x10000) hz1]
  obtain ⟨e00, e01, e10, e11, e20, e21, e30, e31, e40, e41, e50, e51, e60, e61⟩ := idx_facts1 t
  funext j
  obtain ⟨p, n, rfl⟩ : ∃ (p : Fin 200) (n : Fin 10000), j = ix2 p n := ⟨j 0, j 1, eq_ix2 j⟩
  have hp := p.isLt; have hn := n.isLt
  have h : ((cfg1.win 0).blk t).view.emb (ix2 p n) = ((cfg1.win 6).blk t).view.emb (ix2 p n) := by
    funext a; apply Fin.ext
    match a with
    | ⟨0, _⟩ => show win1_0.index t (0 : Fin 2) * 200 + 1 * p.val = win1_6.index t (0 : Fin 2) * 200 + 1 * p.val; omega
    | ⟨1, _⟩ => show win1_0.index t (1 : Fin 2) * 10000 + 1 * n.val = win1_6.index t (1 : Fin 2) * 10000 + 1 * n.val; omega
  have key : ∀ hg : S10000x10000.Idx → EReal,
      hg (((cfg1.win 0).blk t).view.emb (ix2 p n)) = hg (((cfg1.win 6).blk t).view.emb (ix2 p n)) :=
    fun hg => congrArg hg h
  exact key (V c main_arg1)

/-- An index of the projected hidden layer is in point t's block iff each coordinate is in the block's range. -/
theorem mem_blk1u (t : Fin cfg1.N) (i : S10000x40.Idx) :
    i ∈ ((cfg1.win 5).blk t).view.set ↔ ∀ a : Fin 2, win1_5.index t a * S200x40.size a ≤ (i a).val
      ∧ (i a).val < win1_5.index t a * S200x40.size a + S200x40.size a := by
  show i ∈ ((View.whole main_v6_0).slice (win1_5.rect t)).set ↔ _
  rw [View.set_slice_whole, Rect.mem_set_unit]
  exact Iff.rfl

/-- An index of the copy of the graph matrix is in point t's block iff each coordinate is in the block's range. -/
theorem mem_blk1h (t : Fin cfg1.N) (i : S10000x10000.Idx) :
    i ∈ ((cfg1.win 6).blk t).view.set ↔ ∀ a : Fin 2, win1_6.index t a * S200x10000.size a ≤ (i a).val
      ∧ (i a).val < win1_6.index t a * S200x10000.size a + S200x10000.size a := by
  show i ∈ ((View.whole main_v6_1).slice (win1_6.rect t)).set ↔ _
  rw [View.set_slice_whole, Rect.mem_set_unit]
  exact Iff.rfl

/-- The fifty row blocks tile the projected hidden layer: row r is in the block of point r / 200. -/
theorem cover1u (i : S10000x40.Idx) :
    ∃ t : Fin cfg1.N, (cfg1.win 5).flush t = true ∧ i ∈ ((cfg1.win 5).blk t).view.set := by
  have hi0 : (i 0).val < 10000 := (i 0).isLt
  have hi1 : (i 1).val < 40 := (i 1).isLt
  obtain ⟨t, ht⟩ : ∃ t : Fin cfg1.N, t.val = (i 0).val / 200 :=
    ⟨⟨(i 0).val / 200, (show (i 0).val / 200 < 50 by omega).trans_eq N_1.symm⟩, rfl⟩
  refine ⟨t, flush1_5 t, ?_⟩
  obtain ⟨e00, e01, e10, e11, e20, e21, e30, e31, e40, e41, e50, e51, e60, e61⟩ := idx_facts1 t
  rw [mem_blk1u]
  intro a
  match a with
  | ⟨0, _⟩ =>
    show win1_5.index t (0 : Fin 2) * 200 ≤ (i 0).val ∧ (i 0).val < win1_5.index t (0 : Fin 2) * 200 + 200
    omega
  | ⟨1, _⟩ =>
    show win1_5.index t (1 : Fin 2) * 40 ≤ (i 1).val ∧ (i 1).val < win1_5.index t (1 : Fin 2) * 40 + 40
    omega

/-- The fifty row blocks tile the copy of the graph matrix. -/
theorem cover1h (i : S10000x10000.Idx) :
    ∃ t : Fin cfg1.N, (cfg1.win 6).flush t = true ∧ i ∈ ((cfg1.win 6).blk t).view.set := by
  have hi0 : (i 0).val < 10000 := (i 0).isLt
  have hi1 : (i 1).val < 10000 := (i 1).isLt
  obtain ⟨t, ht⟩ : ∃ t : Fin cfg1.N, t.val = (i 0).val / 200 :=
    ⟨⟨(i 0).val / 200, (show (i 0).val / 200 < 50 by omega).trans_eq N_1.symm⟩, rfl⟩
  refine ⟨t, flush1_6 t, ?_⟩
  obtain ⟨e00, e01, e10, e11, e20, e21, e30, e31, e40, e41, e50, e51, e60, e61⟩ := idx_facts1 t
  rw [mem_blk1h]
  intro a
  match a with
  | ⟨0, _⟩ =>
    show win1_6.index t (0 : Fin 2) * 200 ≤ (i 0).val ∧ (i 0).val < win1_6.index t (0 : Fin 2) * 200 + 200
    omega
  | ⟨1, _⟩ =>
    show win1_6.index t (1 : Fin 2) * 10000 ≤ (i 1).val ∧ (i 1).val < win1_6.index t (1 : Fin 2) * 10000 + 10000
    omega

/-- The projected hidden layer after the region. -/
theorem final1_u (c : Dev nD) :
    (dat1 (F := Ideal) V q c).arrAt 5 cfg1.N = G1u (V c main_arg1) (V c main_v5) (V c main_v3) (V c main_arg4) :=
  (dat1 (F := Ideal) V q c).arrAt_eq_of_cover 5 (G1u (V c main_arg1) (V c main_v5) (V c main_v3) (V c main_arg4))
    (fun t _ => flushed1u_eq V q c t) cover1u

/-- The copy of the graph matrix after the region is the graph matrix. -/
theorem final1_h (c : Dev nD) : (dat1 (F := Ideal) V q c).arrAt 6 cfg1.N = V c main_arg1 :=
  (dat1 (F := Ideal) V q c).arrAt_eq_of_cover 6 (V c main_arg1) (fun t _ => flushed1h_eq V q c t) cover1h

end Cert.KernelIdeal.Value

end
-- ==== Proof.KiValue2.lean ====
/-
  The third kernel region, read: every grid point writes back rows 200 t … 200 t + 199 of

    out (r, o) = sum over n of hgs (r, n) * U (n, o)  +  U (r, o)  +  b (0, o),

  where hgs is the graph matrix as the second region copied it out, U the projected hidden layer and b the bias as a
  one-row matrix; the fifty row blocks tile the result, so the whole array ends holding this function.
-/
import proofs.«161026_g21131239096597_cont_8to1_6_7_alg».proof.Proof.KiBody2
import proofs.«161026_g21131239096597_cont_8to1_6_7_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Value

open Cert.KernelIdeal Cert.KernelIdeal.Gen Cert.KernelIdeal.Hand Idealize.ShloMosaic Idealize.ShloMosaic.TcCoe
  Idealize.ShloMosaic.ValueIdx Idealize.SL Idealize.SL.RA Idealize.SL.Sem
open Idealize.ShloMosaic.Pipeline (Dat)

theorem hz2 : (![0, 0] : Fin 2 → Nat) = fun _ => 0 := funext fun a => by fin_cases a <;> rfl

/-! ## The body's payload at an entry -/

theorem d2_lhs0 (i : S200x40.Idx) (q : dot_S200x10000_S10000x40_S200x40_1_0_0_1_n_n.contr.Idx) :
    (dot_S200x10000_S10000x40_S200x40_1_0_0_1_n_n.lhsIdx i q (0 : Fin 2)).val = (i (0 : Fin 2)).val := by
  unfold DotDims.lhsIdx
  rw [dif_neg (show ¬(0 : Fin S200x10000.rank) ∈ dot_S200x10000_S10000x40_S200x40_1_0_0_1_n_n.lhsBatch by decide),
    dif_pos (show (0 : Fin S200x10000.rank) ∈ dot_S200x10000_S10000x40_S200x40_1_0_0_1_n_n.lhsNonContracting by decide)]
  rfl
theorem d2_rhs1 (i : S200x40.Idx) (q : dot_S200x10000_S10000x40_S200x40_1_0_0_1_n_n.contr.Idx) :
    (dot_S200x10000_S10000x40_S200x40_1_0_0_1_n_n.rhsIdx i q (1 : Fin 2)).val = (i (1 : Fin 2)).val := by
  unfold DotDims.rhsIdx
  rw [dif_neg (show ¬(1 : Fin S10000x40.rank) ∈ dot_S200x10000_S10000x40_S200x40_1_0_0_1_n_n.rhsBatch by decide),
    dif_pos (show (1 : Fin S10000x40.rank) ∈ dot_S200x10000_S10000x40_S200x40_1_0_0_1_n_n.rhsNonContracting by decide)]
  rfl

/-- The payload the body stores, at entry (p, o) of the block: the stripe's row p against column o of the projected
    hidden layer, plus the stripe's own entry of it, plus the bias. -/
theorem pay2_at (x0 : Vec Ideal S200x10000 .bf16) (x1 : Vec Ideal S10000x40 .f32) (x2 : Vec Ideal S200x40 .f32)
    (x3 : Vec Ideal S1x40 .f32) (p : Fin 200) (o : Fin 40) :
    k2_pay1 (F := Ideal) x0 x1 x2 x3 (ix2 p o)
      = (∑ n : Fin 10000, x0 (ix2 p n) * x1 (ix2 n o)) + x2 (ix2 p o) + x3 (ix2 (0 : Fin 1) o) := by
  unfold k2_pay1
  simp only [shapeCast_self]
  show FloatOps.matmul dot_S200x10000_S10000x40_S200x40_1_0_0_1_n_n none x0 x1
        (constant (F := Ideal) S200x40 .f32 0x00000000#32) (ix2 p o) + x2 (ix2 p o)
      + broadcastTo S200x40 x3 broadcasts_S1x40_S200x40 (ix2 p o) = _
  rw [Cert.LibMatmul.matmul_zero_ix2 dot_S200x10000_S10000x40_S200x40_1_0_0_1_n_n rfl rfl d2_lhs0
      (fun i q => dot_S200x10000_S10000x40_S200x40_1_0_0_1_n_n.lhsIdx_val_of_single rfl i q)
      (fun i q => dot_S200x10000_S10000x40_S200x40_1_0_0_1_n_n.rhsIdx_val_of_single rfl i q) d2_rhs1,
    broadcastTo_apply x3 broadcasts_S1x40_S200x40 (ix2 p o) (ix2 (0 : Fin 1) o)
      (fun a => match a with | ⟨0, _⟩ => rfl | ⟨1, _⟩ => rfl)]

/-! ## From blocks to the array -/

variable (V : (c : Dev nD) → (b : Ref sig .tc) → Buf (Elt Ideal) ((c : Thread nD τ).loc b))
variable (q : Fin cfg2.W → PosShare TreeShare)

/-- What the result array ends holding, entry by entry, from the copied graph matrix, the projected hidden layer and
    the one-row bias. -/
def G2 (hgs : S10000x10000.Idx → EReal) (U : S10000x40.Idx → EReal) (b : S1x40.Idx → EReal) : S10000x40.Idx → EReal :=
  fun i => (∑ n : Fin 10000, hgs (ix2 (i 0) n) * U (ix2 n (i 1))) + U (ix2 (i 0) (i 1)) + b (ix2 (0 : Fin 1) (i 1))

/-- The printed index maps over the grid: the stripe, the stripe's own rows and the result move with the point; the
    whole projected layer and the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the result. -/
theorem flushed2_eq (c : Dev nD) (t : Fin cfg2.N) :
    (dat2 (F := Ideal) V q c).flushed 4 t = ((cfg2.win 4).blk t).view.read (Elt Ideal) (G2 (V c main_v6_1) (V c main_v6_0) (V c main_v4)) := by
  show (cfg2.win 4).cut (grid2.coords t) ((dat2 (F := Ideal) V q c).after 4 t) = _
  rw [after2_4]
  unfold out2_4
  rw [View.canon_unit_zero hz2]
  simp only [View.ld_unit_zero (S := S200x10000) hz2, View.ld_unit_zero (S := S10000x40) hz2,
    View.ld_unit_zero (S := S200x40) hz2, View.ld_unit_zero (S := S1x40) hz2]
  obtain ⟨e00, e01, e10, e11, e20, e21, e30, e31, e40, e41⟩ := idx_facts2 t
  funext j
  obtain ⟨p, o, rfl⟩ : ∃ (p : Fin 200) (o : Fin 40), j = ix2 p o := ⟨j 0, j 1, eq_ix2 j⟩
  show k2_pay1 (F := Ideal) (iblk2 V c 0 t) (iblk2 V c 1 t) (iblk2 V c 2 t) (iblk2 V c 3 t) (ix2 p o)
    = G2 (V c main_v6_1) (V c main_v6_0) (V c main_v4) (((cfg2.win 4).blk t).view.emb (ix2 p o))
  refine (pay2_at _ _ _ _ p o).trans ?_
  have hp := p.isLt; have ho := o.isLt
  have h0 : ∀ n : Fin 10000, ((cfg2.win 0).blk t).view.emb (ix2 p n)
      = ix2 ((((cfg2.win 4).blk t).view.emb (ix2 p o)) 0) n := fun n => by
    funext a; apply Fin.ext
    match a with
    | ⟨0, _⟩ => show win2_0.index t (0 : Fin 2) * 200 + 1 * p.val = win2_4.index t (0 : Fin 2) * 200 + 1 * p.val; omega
    | ⟨1, _⟩ => show win2_0.index t (1 : Fin 2) * 10000 + 1 * n.val = n.val; omega
  have h1 : ∀ n : Fin 10000, ((cfg2.win 1).blk t).view.emb (ix2 n o)
      = ix2 n ((((cfg2.win 4).blk t).view.emb (ix2 p o)) 1) := fun n => by
    funext a; apply Fin.ext
    match a with
    | ⟨0, _⟩ => show win2_1.index t (0 : Fin 2) * 10000 + 1 * n.val = n.val; omega
    | ⟨1, _⟩ => show win2_1.index t (1 : Fin 2) * 40 + 1 * o.val = win2_4.index t (1 : Fin 2) * 40 + 1 * o.val; omega
  have h2 : ((cfg2.win 2).blk t).view.emb (ix2 p o)
      = ix2 ((((cfg2.win 4).blk t).view.emb (ix2 p o)) 0) ((((cfg2.win 4).blk t).view.emb (ix2 p o)) 1) := by
    funext a; apply Fin.ext
    match a with
    | ⟨0, _⟩ => show win2_2.index t (0 : Fin 2) * 200 + 1 * p.val = win2_4.index t (0 : Fin 2) * 200 + 1 * p.val; omega
    | ⟨1, _⟩ => show win2_2.index t (1 : Fin 2) * 40 + 1 * o.val = win2_4.index t (1 : Fin 2) * 40 + 1 * o.val; omega
  have h3 : ((cfg2.win 3).blk t).view.emb (ix2 (0 : Fin 1) o)
      = ix2 (0 : Fin 1) ((((cfg2.win 4).blk t).view.emb (ix2 p o)) 1) := by
    funext a; apply Fin.ext
    match a with
    | ⟨0, _⟩ => show win2_3.index t (0 : Fin 2) * 1 + 1 * 0 = 0; omega
    | ⟨1, _⟩ => show win2_3.index t (1 : Fin 2) * 40 + 1 * o.val = win2_4.index t (1 : Fin 2) * 40 + 1 * o.val; omega
  have key : ∀ (hgs : S10000x10000.Idx → EReal) (U : S10000x40.Idx → EReal) (b : S1x40.Idx → EReal),
      (∑ n : Fin 10000, hgs (((cfg2.win 0).blk t).view.emb (ix2 p n)) * U (((cfg2.win 1).blk t).view.emb (ix2 n o)))
        + U (((cfg2.win 2).blk t).view.emb (ix2 p o)) + b (((cfg2.win 3).blk t).view.emb (ix2 (0 : Fin 1) o))
      = G2 hgs U b (((cfg2.win 4).blk t).view.emb (ix2 p o)) := fun hgs U b => by
    have hs : (∑ n : Fin 10000, hgs (((cfg2.win 0).blk t).view.emb (ix2 p n)) * U (((cfg2.win 1).blk t).view.emb (ix2 n o)))
        = ∑ n : Fin 10000, hgs (ix2 ((((cfg2.win 4).blk t).view.emb (ix2 p o)) 0) n)
            * U (ix2 n ((((cfg2.win 4).blk t).view.emb (ix2 p o)) 1)) :=
      Finset.sum_congr rfl fun n _ => congrArg₂ (· * ·) (congrArg hgs (h0 n)) (congrArg U (h1 n))
    rw [hs, h2, h3]
    rfl
  exact key (V c main_v6_1) (V c main_v6_0) (V c main_v4)

/-- An index of the result array is in point t's block iff each coordinate is in the block's range on its axis. -/
theorem mem_blk2 (t : Fin cfg2.N) (i : S10000x40.Idx) :
    i ∈ ((cfg2.win 4).blk t).view.set ↔ ∀ a : Fin 2, win2_4.index t a * S200x40.size a ≤ (i a).val
      ∧ (i a).val < win2_4.index t a * S200x40.size a + S200x40.size a := by
  show i ∈ ((View.whole main_v7).slice (win2_4.rect t)).set ↔ _
  rw [View.set_slice_whole, Rect.mem_set_unit]
  exact Iff.rfl

/-- The fifty row blocks tile the result: row r is in the block of point r / 200. -/
theorem cover2 (i : S10000x40.Idx) : ∃ t : Fin cfg2.N, (cfg2.win 4).flush t = true ∧ i ∈ ((cfg2.win 4).blk t).view.set := by
  have hi0 : (i 0).val < 10000 := (i 0).isLt
  have hi1 : (i 1).val < 40 := (i 1).isLt
  obtain ⟨t, ht⟩ : ∃ t : Fin cfg2.N, t.val = (i 0).val / 200 :=
    ⟨⟨(i 0).val / 200, (show (i 0).val / 200 < 50 by omega).trans_eq N_2.symm⟩, rfl⟩
  refine ⟨t, flush2_4 t, ?_⟩
  obtain ⟨e00, e01, e10, e11, e20, e21, e30, e31, e40, e41⟩ := idx_facts2 t
  rw [mem_blk2]
  intro a
  match a with
  | ⟨0, _⟩ =>
    show win2_4.index t (0 : Fin 2) * 200 ≤ (i 0).val ∧ (i 0).val < win2_4.index t (0 : Fin 2) * 200 + 200
    omega
  | ⟨1, _⟩ =>
    show win2_4.index t (1 : Fin 2) * 40 ≤ (i 1).val ∧ (i 1).val < win2_4.index t (1 : Fin 2) * 40 + 40
    omega

/-- The result array after the region: the stripe product, the row itself, the bias, at every entry. -/
theorem final2 (c : Dev nD) :
    (dat2 (F := Ideal) V q c).arrAt 4 cfg2.N = G2 (V c main_v6_1) (V c main_v6_0) (V c main_v4) :=
  (dat2 (F := Ideal) V q c).arrAt_eq_of_cover 4 (G2 (V c main_v6_1) (V c main_v6_0) (V c main_v4)) (fun t _ => flushed2_eq V q c t) (cover2)

end Cert.KernelIdeal.Value

end
-- ==== Proof.KiHost.lean ====
/-
  The host stretch read at an index. Before the first region the program lays the two biases out as rows: the first
  bias, of length 256, is repeated twice into a row of 512 (entry j of the row is entry j % 256 of the bias); the second,
  of length 40, becomes a row of 40 unchanged.
-/
import proofs.«161026_g21131239096597_cont_8to1_6_7_alg».proof.Proof.Gen.KernelIdeal.Launch
import proofs.«161026_g21131239096597_cont_8to1_6_7_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Value

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The second bias as a row: one reshape. -/
theorem host_v4 : (StableHlo.after (Gen.hostOps0 (F := Ideal)) (fun b => m (c, b)) (Proc.devRef .tc main_v4) : S1x40.Idx → EReal)
    = shapeCast S1x40 (m (c, Proc.devRef .tc main_arg5) : S40.Idx → EReal) shapeCasts_S40_S1x40 := by
  after_results; rfl

/-- The first bias as a row of 512: a row of 256, repeated on two rows, flattened, and made a row again. -/
theorem host_v3 : (StableHlo.after (Gen.hostOps0 (F := Ideal)) (fun b => m (c, b)) (Proc.devRef .tc main_v3) : S1x512.Idx → EReal)
    = shapeCast S1x512 (shapeCast S512 (broadcastInDim S2x256 ![0, 1] bcast_S1x256_S2x256_0_1
        (shapeCast S1x256 (m (c, Proc.devRef .tc main_arg3) : S256.Idx → EReal) shapeCasts_S256_S1x256)) shapeCasts_S2x256_S512) shapeCasts_S512_S1x512 := by
  after_results; rfl

/-- Entry o of the second bias row is entry o of the bias. -/
theorem host_b2 (o : Fin 40) :
    (StableHlo.after (Gen.hostOps0 (F := Ideal)) (fun b => m (c, b)) (Proc.devRef .tc main_v4) : S1x40.Idx → EReal) (ix2 (0 : Fin 1) o)
      = (m ((c : Thread nD τ).loc main_arg5) : S40.Idx → EReal) (ix1 o) := by
  rw [host_v4]
  exact shapeCast_a_1a_apply _ _ _ _

/-- Entry j of the first bias row is entry j % 256 of the bias. -/
theorem host_b1 (j : Fin 512) :
    (StableHlo.after (Gen.hostOps0 (F := Ideal)) (fun b => m (c, b)) (Proc.devRef .tc main_v3) : S1x512.Idx → EReal) (ix2 (0 : Fin 1) j)
      = (m ((c : Thread nD τ).loc main_arg3) : S256.Idx → EReal) (ix1 (Cert.Gin.colJ j)) := by
  rw [host_v3]
  refine (shapeCast_a_1a_apply _ _ _ _).trans ?_
  refine (shapeCast_apply _ _ (ix1 j) (ix2 (Cert.Gin.colK j) (Cert.Gin.colJ j)) ?_).trans ?_
  · rw [Shape.rowMajor_val_two, Shape.rowMajor_val_one]
    show (j.val / 256) * 256 + j.val % 256 = j.val
    omega
  refine (broadcastInDim_apply _ _ _ (ix2 (Cert.Gin.colK j) (Cert.Gin.colJ j)) (ix2 (0 : Fin 1) (Cert.Gin.colJ j)) ?_).trans ?_
  · intro a
    match a with
    | ⟨0, _⟩ => rfl
    | ⟨1, _⟩ => rfl
  exact shapeCast_a_1a_apply _ _ _ _

end Cert.KernelIdeal.Value

end
-- ==== Proof.KiValue.lean ====
/-
  What the kernel's result buffer holds at the end, as a function of the six arguments.

  Region three wrote hg·U + U + b2 from the buffers it found; of those, the stripe copy holds hg, the bias row holds b2,
  and U is what region two wrote: max(hg·V + V + b1, 0)·W2 from the buffers IT found, where the bias row holds b1 laid out
  twice and V is what region one wrote: the two inputs projected through W1 side by side. No segment writes an argument,
  so each of them is read at its launch contents. Composed, the three stages are the specification's result.
-/
import proofs.«161026_g21131239096597_cont_8to1_6_7_alg».proof.Proof.KiRun
import proofs.«161026_g21131239096597_cont_8to1_6_7_alg».proof.Proof.KiValue0
import proofs.«161026_g21131239096597_cont_8to1_6_7_alg».proof.Proof.KiValue1
import proofs.«161026_g21131239096597_cont_8to1_6_7_alg».proof.Proof.KiValue2
import proofs.«161026_g21131239096597_cont_8to1_6_7_alg».proof.Proof.KiHost
import proofs.«161026_g21131239096597_cont_8to1_6_7_alg».proof.Proof.Spec

noncomputable section

open scoped BigOperators

namespace Cert.KernelIdeal.Value

open Cert.KernelIdeal Cert.KernelIdeal.Gen Cert.KernelIdeal.Hand
open Idealize.ShloMosaic Idealize.ShloMosaic.TcCoe Idealize.ShloMosaic.ValueIdx Idealize.SL.Sem

/-- The three regions' functions composed are the specification's result, once the two bias rows are read as the biases. -/
theorem stages_compose (x : S2x10000x256.Idx → EReal) (hg : S10000x10000.Idx → EReal) (w1 : S256x256.Idx → EReal)
    (b1 : S256.Idx → EReal) (w2 : S512x40.Idx → EReal) (b2 : S40.Idx → EReal)
    (b1row : S1x512.Idx → EReal) (b2row : S1x40.Idx → EReal)
    (h1 : ∀ j : Fin 512, b1row (ix2 (0 : Fin 1) j) = b1 (ix1 (Cert.Gin.colJ j)))
    (h2 : ∀ o : Fin 40, b2row (ix2 (0 : Fin 1) o) = b2 (ix1 o)) :
    G2 hg (G1u hg (G0 x w1) b1row w2) b2row = Cert.Gin.resultArr x hg w1 b1 w2 b2 := by
  funext i
  obtain ⟨r, o, rfl⟩ : ∃ (r : Fin 10000) (o : Fin 40), i = ix2 r o := ⟨i 0, i 1, eq_ix2 i⟩
  simp only [G2, G1u, G0, h1, h2]
  rfl

variable (m : (ℓ : Loc nD τ sig) → Buf (Elt Ideal) ℓ) (c : Dev nD)

/-- An argument is read at its launch contents after the host stretch, -/
theorem V1_arg (b : Ref sig .tc) (h : b ∉ Gen.hostOps0_W) : Hand.V1 m c b = m ((c : Thread nD τ).loc b) := Gen.V1_of m c b h
/-- after region one, -/
theorem V2_arg (b : Ref sig .tc) (h5 : b ≠ main_v5) (h : b ∉ Gen.hostOps0_W) : Hand.V2 m c b = m ((c : Thread nD τ).loc b) :=
  (V2_of m c b h5).trans (V1_arg m c b h)

/-- Region one leaves the two inputs projected through W1, side by side. -/
theorem V2_v5_eq : Hand.V2 m c main_v5 = G0 (m ((c : Thread nD τ).loc main_arg0)) (m ((c : Thread nD τ).loc main_arg2)) := by
  refine (V2_v5 m c).trans ((final0 (Hand.V1 m) c).trans ?_)
  rw [V1_arg m c main_arg0 (by decide), V1_arg m c main_arg2 (by decide)]

/-- Region two leaves the hidden layer projected through W2, -/
theorem V3_v6_0_eq : Hand.V3 m c main_v6_0
    = G1u (m ((c : Thread nD τ).loc main_arg1)) (G0 (m ((c : Thread nD τ).loc main_arg0)) (m ((c : Thread nD τ).loc main_arg2)))
        (Hand.V1 m c main_v3) (m ((c : Thread nD τ).loc main_arg4)) := by
  refine (V3_v6_0 m c).trans ((final1_u (Hand.V2 m) q1 c).trans ?_)
  rw [V2_v5_eq, V2_arg m c main_arg1 (by decide) (by decide), V2_arg m c main_arg4 (by decide) (by decide), V2_of m c main_v3 (by decide)]

/-- and copies the graph matrix out, unchanged in value. -/
theorem V3_v6_1_eq : Hand.V3 m c main_v6_1 = m ((c : Thread nD τ).loc main_arg1) :=
  (V3_v6_1 m c).trans ((final1_h (Hand.V2 m) q1 c).trans (V2_arg m c main_arg1 (by decide) (by decide)))

/-- The second bias row reaches region three as the host stretch left it. -/
theorem V3_v4_eq : Hand.V3 m c main_v4 = Hand.V1 m c main_v4 :=
  (V3_of m c main_v4 (by decide) (by decide)).trans (V2_of m c main_v4 (by decide))

/-- The result buffer ends at the three stages composed. -/
theorem resO_eq : resO (F := Ideal) m c
      = Cert.Gin.resultArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (final2 (Hand.V3 m) q2 c).trans ?_
  rw [V3_v6_1_eq, V3_v6_0_eq, V3_v4_eq]
  exact stages_compose _ _ _ _ _ _ _ _ (host_b1 m c) (host_b2 m c)

end Cert.KernelIdeal.Value

end
-- ==== Proof.Algebra.lean ====
/-
  The reference's arrangement of the computation, entry by entry, and the law that joins it to the staged one.

  The reference mixes each input with its neighbourhood sum first and projects afterwards:

    s_k (r, a)   = 1 * x (k, r, a) + sum over n of hg (r, n) * x (k, n, a)
    h_k (r, j)   = max (sum over a of s_k (r, a) * W1 (a, j)  +  b1 j) 0                       (j below 256)
    c (r, j)     = h_(j / 256) (r, j % 256)                                                    (j below 512)
    out (r, o)   = sum over j of (1 * c (r, j) + sum over n of hg (r, n) * c (n, j)) * W2 (j, o)  +  b2 o

  The staged form projects first and mixes afterwards. The two agree by distributivity and by exchanging the two finite
  sums: for a row g, a matrix X, a column w and a row index r,

    sum over a of (X (r, a) + sum over n of g n * X (n, a)) * w a
      = sum over n of g n * (sum over a of X (n, a) * w a)  +  sum over a of X (r, a) * w a.

  On the extended reals these laws need every entry finite, which is the hypothesis; so every quantity is carried as the
  image of a real and the law is proved over the reals.
-/
import proofs.«161026_g21131239096597_cont_8to1_6_7_alg».proof.Proof.Spec
import Mathlib.Algebra.BigOperators.Ring.Finset
import Mathlib.Data.EReal.Operations

noncomputable section

open scoped BigOperators

namespace Cert.Gin

open Idealize.ShloMosaic Idealize.ShloMosaic.ValueIdx

/-! ## The law over the reals -/

/-- Mixing a matrix with a weighted sum of its rows and then projecting is projecting and then mixing. -/
theorem mix_project_real {N A : Type} [Fintype N] [Fintype A] (g : N → ℝ) (X : N → A → ℝ) (w : A → ℝ) (r : N) :
    ∑ a, (1 * X r a + ∑ n, g n * X n a) * w a = (∑ n, g n * ∑ a, X n a * w a) + ∑ a, X r a * w a := by
  simp only [one_mul, add_mul, Finset.sum_add_distrib, Finset.sum_mul, Finset.mul_sum]
  rw [add_comm, Finset.sum_comm]
  congr 1
  refine Finset.sum_congr rfl fun n _ => Finset.sum_congr rfl fun a _ => ?_
  ring

/-! ## Images of reals in the extended reals -/

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is the image of a real. -/
def IsReal (e : EReal) : Prop := ∃ t : ℝ, e = (t : EReal)

theorem IsReal.add {a b : EReal} (ha : IsReal a) (hb : IsReal b) : IsReal (a + b) := by
  obtain ⟨s, rfl⟩ := ha; obtain ⟨t, rfl⟩ := hb; exact ⟨s + t, (EReal.coe_add s t).symm⟩

theorem IsReal.mul {a b : EReal} (ha : IsReal a) (hb : IsReal b) : IsReal (a * b) := by
  obtain ⟨s, rfl⟩ := ha; obtain ⟨t, rfl⟩ := hb; exact ⟨s * t, (EReal.coe_mul s t).symm⟩

theorem IsReal.max {a b : EReal} (ha : IsReal a) (hb : IsReal b) : IsReal (max a b) := by
  obtain ⟨s, rfl⟩ := ha; obtain ⟨t, rfl⟩ := hb; exact ⟨Max.max s t, (EReal.coe_strictMono.monotone.map_max).symm⟩

theorem IsReal.sum {ι : Type} (s : Finset ι) {f : ι → EReal} (hf : ∀ i, IsReal (f i)) : IsReal (∑ i ∈ s, f i) := by
  choose g hg using hf
  exact ⟨∑ i ∈ s, g i, by rw [coe_sum]; exact Finset.sum_congr rfl fun i _ => hg i⟩

/-- The float word of 1.0 read as an extended real, left unevaluated. -/
abbrev oneWord : EReal := Ideal.ofBits .f32 0x3F800000#32

theorem oneWord_eq : oneWord = ((1 : ℝ) : EReal) := by
  show Ideal.ofBits .f32 0x3F800000#32 = ((1 : ℝ) : EReal)
  simp [Ideal.ofBits, Ideal.ieee, -EReal.coe_mul]; norm_num

theorem zeroWord_eq : zeroWord = ((0 : ℝ) : EReal) := by
  show Ideal.ofBits .f32 0x00000000#32 = ((0 : ℝ) : EReal)
  simp [Ideal.ofBits, Ideal.ieee]

/-- The law over the extended reals, for entries that are images of reals; the unit factor is the float word of 1.0. -/
theorem mix_project {N A : Type} [Fintype N] [Fintype A] (g : N → EReal) (X : N → A → EReal) (w : A → EReal) (r : N)
    (hg : ∀ n, IsReal (g n)) (hX : ∀ n a, IsReal (X n a)) (hw : ∀ a, IsReal (w a)) :
    ∑ a, (oneWord * X r a + ∑ n, g n * X n a) * w a = (∑ n, g n * ∑ a, X n a * w a) + ∑ a, X r a * w a := by
  choose g' hg' using hg
  choose X' hX' using hX
  choose w' hw' using hw
  simp only [hg', hX', hw', oneWord_eq, ← EReal.coe_mul, ← coe_sum, ← EReal.coe_add]
  exact congrArg _ (mix_project_real g' X' w' r)

/-! ## The reference's arrangement -/

section Ref

variable (x : (⟨3, ![2, 10000, 256]⟩ : Shape).Idx → EReal) (hg : (⟨2, ![10000, 10000]⟩ : Shape).Idx → EReal)
  (w1 : (⟨2, ![256, 256]⟩ : Shape).Idx → EReal) (b1 : (⟨1, ![256]⟩ : Shape).Idx → EReal)
  (w2 : (⟨2, ![512, 40]⟩ : Shape).Idx → EReal) (b2 : (⟨1, ![40]⟩ : Shape).Idx → EReal)

/-- Input k mixed with its neighbourhood sum. -/
def refMix (k : Fin 2) (r : Fin 10000) (a : Fin 256) : EReal :=
  oneWord * x (ix3 k r a) + ∑ n : Fin 10000, hg (ix2 r n) * x (ix3 k n a)

/-- The hidden layer of input k: the mixed input projected through W1, the bias, clipped below. -/
def refHidden (k : Fin 2) (r : Fin 10000) (j : Fin 256) : EReal :=
  max ((∑ a : Fin 256, refMix x hg k r a * w1 (ix2 a j)) + b1 (ix1 j)) zeroWord

/-- The two hidden layers side by side. -/
def refCat (r : Fin 10000) (j : Fin 512) : EReal :=
  refHidden x hg w1 b1 (colK j) r (colJ j)

/-- The reference's result at entry (r, o). -/
def refResult (r : Fin 10000) (o : Fin 40) : EReal :=
  (∑ j : Fin 512, (oneWord * refCat x hg w1 b1 r j + ∑ n : Fin 10000, hg (ix2 r n) * refCat x hg w1 b1 n j)
      * w2 (ix2 j o)) + b2 (ix1 o)

end Ref

/-- With every entry finite, the reference's arrangement and the staged one agree entry by entry. -/
theorem refResult_eq_result (x : (⟨3, ![2, 10000, 256]⟩ : Shape).Idx → EReal)
    (hg : (⟨2, ![10000, 10000]⟩ : Shape).Idx → EReal) (w1 : (⟨2, ![256, 256]⟩ : Shape).Idx → EReal)
    (b1 : (⟨1, ![256]⟩ : Shape).Idx → EReal) (w2 : (⟨2, ![512, 40]⟩ : Shape).Idx → EReal)
    (b2 : (⟨1, ![40]⟩ : Shape).Idx → EReal)
    (hx : ∀ i, ∃ t : ℝ, x i = (t : EReal)) (hhg : ∀ i, ∃ t : ℝ, hg i = (t : EReal))
    (hw1 : ∀ i, ∃ t : ℝ, w1 i = (t : EReal)) (hb1 : ∀ i, ∃ t : ℝ, b1 i = (t : EReal))
    (hw2 : ∀ i, ∃ t : ℝ, w2 i = (t : EReal)) (hb2 : ∀ i, ∃ t : ℝ, b2 i = (t : EReal))
    (r : Fin 10000) (o : Fin 40) :
    refResult x hg w1 b1 w2 b2 r o = Cert.Gin.result x hg w1 b1 w2 b2 r o := by
  -- the two hidden layers agree
  have hcat : ∀ (r : Fin 10000) (j : Fin 512), refCat x hg w1 b1 r j = hidden hg (stageV x w1) b1 r j := by
    intro r j
    unfold refCat refHidden hidden
    congr 2
    exact mix_project (fun n => hg (ix2 r n)) (fun n a => x (ix3 (colK j) n a)) (fun a => w1 (ix2 a (colJ j))) r
      (fun n => hhg _) (fun n a => hx _) (fun a => hw1 _)
  -- and are finite
  have hfin : ∀ (r : Fin 10000) (j : Fin 512), IsReal (hidden hg (stageV x w1) b1 r j) := by
    intro r j
    unfold hidden stageV
    exact IsReal.max (IsReal.add (IsReal.add
      (IsReal.sum _ fun n => IsReal.mul (hhg _) (IsReal.sum _ fun a => IsReal.mul (hx _) (hw1 _)))
      (IsReal.sum _ fun a => IsReal.mul (hx _) (hw1 _))) (hb1 _)) ⟨0, zeroWord_eq⟩
  unfold refResult result stageO stageU
  simp only [hcat]
  congr 1
  exact mix_project (fun n => hg (ix2 r n)) (fun n j => hidden hg (stageV x w1) b1 n j) (fun j => w2 (ix2 j o)) r
    (fun n => hhg _) (fun n j => hfin n j) (fun j => hw2 _)

end Cert.Gin

end
-- ==== Proof.RefBridge.lean ====
/-
  The reference program read entry by entry: its last stage at an index is the reference's arrangement of the
  computation, and so, with every entry finite, the staged result.

  Each operation of the reference is read at an index with explicit coordinates (a row r, a column a, j or o); the
  index maps of the slices, reshapes, broadcasts and products collapse to those coordinates by computing each axis.
  The concatenation of the two hidden layers along the columns reads the first layer below column 256 and the second
  from it on, which is the split of a column j into j / 256 and j % 256.
-/
import proofs.«161026_g21131239096597_cont_8to1_6_7_alg».proof.Proof.Gen.ReferenceIdeal.Read
import proofs.«161026_g21131239096597_cont_8to1_6_7_alg».proof.Proof.Algebra

noncomputable section

open scoped BigOperators

namespace Cert.Gin.RefBridge

open Idealize.ShloMosaic Idealize.ShloMosaic.ValueIdx Cert.ReferenceIdeal Cert.ReferenceIdeal.Gen Cert.ReferenceIdeal.Read

variable (x0 : (⟨S2x10000x256, .f32⟩ : BufTy).Contents (Elt Ideal)) (x1 : (⟨S10000x10000, .f32⟩ : BufTy).Contents (Elt Ideal))
  (x2 : (⟨S256x256, .f32⟩ : BufTy).Contents (Elt Ideal)) (x3 : (⟨S256, .f32⟩ : BufTy).Contents (Elt Ideal))
  (x4 : (⟨S512x40, .f32⟩ : BufTy).Contents (Elt Ideal)) (x5 : (⟨S40, .f32⟩ : BufTy).Contents (Elt Ideal))

/-! ## The first input: slice, mix, project, clip -/

/-- The first input's slice, reshaped to rows and columns. -/
theorem v1_at (r : Fin 10000) (a : Fin 256) : val_main_v1 (F := Ideal) x0 (ix2 r a) = x0 (ix3 0 r a) := by
  rw [val_main_v1_apply, val_main_v0_apply]
  refine congrArg x0 (funext fun b => Fin.ext ?_)
  have hr := r.isLt; have ha := a.isLt
  match b with
  | ⟨0, _⟩ => rfl
  | ⟨1, _⟩ => show (r.val * 256 + a.val) / 256 % 10000 = r.val; omega
  | ⟨2, _⟩ => show (r.val * 256 + a.val) % 256 = a.val; omega

/-- The neighbourhood sum of the first input. -/
theorem v4_at (r : Fin 10000) (a : Fin 256) :
    val_main_v4 (F := Ideal) x0 x1 (ix2 r a) = ∑ n : Fin 10000, x1 (ix2 r n) * x0 (ix3 0 n a) := by
  rw [val_main_v4_apply]
  refine Finset.sum_congr rfl fun n _ => ?_
  rw [show ridx_main_v4 (ix2 r a) n = ix2 n a from funext fun b => match b with | ⟨0, _⟩ => rfl | ⟨1, _⟩ => rfl,
    show lidx_main_v4 (ix2 r a) n = ix2 r n from funext fun b => match b with | ⟨0, _⟩ => rfl | ⟨1, _⟩ => rfl, v1_at]

/-- The first input mixed with its neighbourhood sum. -/
theorem v5_at (r : Fin 10000) (a : Fin 256) : val_main_v5 (F := Ideal) x0 x1 (ix2 r a) = refMix x0 x1 0 r a := by
  rw [val_main_v5_apply, val_main_v3_apply, val_main_v2_apply, val_main_cst_apply, v1_at, v4_at]
  rfl

/-- The mixed first input projected through W1. -/
theorem v6_at (r : Fin 10000) (j : Fin 256) :
    val_main_v6 (F := Ideal) x0 x1 x2 (ix2 r j) = ∑ a : Fin 256, refMix x0 x1 0 r a * x2 (ix2 a j) := by
  rw [val_main_v6_apply]
  refine Finset.sum_congr rfl fun a _ => ?_
  rw [show lidx_main_v6 (ix2 r j) a = ix2 r a from funext fun b => match b with | ⟨0, _⟩ => rfl | ⟨1, _⟩ => rfl,
    show ridx_main_v6 (ix2 r j) a = ix2 a j from funext fun b => match b with | ⟨0, _⟩ => rfl | ⟨1, _⟩ => rfl, v5_at]

/-- The first bias, along the rows. -/
theorem v8_at (r : Fin 10000) (j : Fin 256) : val_main_v8 (F := Ideal) x3 (ix2 r j) = x3 (ix1 j) := by
  rw [val_main_v8_apply, val_main_v7_apply]
  exact congrArg x3 (funext fun b => match b with | ⟨0, _⟩ => rfl)

/-- The first hidden layer. -/
theorem v10_at (r : Fin 10000) (j : Fin 256) :
    val_main_v10 (F := Ideal) x0 x1 x2 x3 (ix2 r j) = refHidden x0 x1 x2 x3 0 r j := by
  rw [val_main_v10_apply, val_main_v9_apply, val_main_call0_v0_apply, val_main_call0_cst_apply, v6_at, v8_at]
  rfl

/-! ## The second input: the same four steps -/

/-- The second input's slice, reshaped to rows and columns. -/
theorem v12_at (r : Fin 10000) (a : Fin 256) : val_main_v12 (F := Ideal) x0 (ix2 r a) = x0 (ix3 1 r a) := by
  rw [val_main_v12_apply, val_main_v11_apply]
  refine congrArg x0 (funext fun b => Fin.ext ?_)
  have hr := r.isLt; have ha := a.isLt
  match b with
  | ⟨0, _⟩ => rfl
  | ⟨1, _⟩ => show (r.val * 256 + a.val) / 256 % 10000 = r.val; omega
  | ⟨2, _⟩ => show (r.val * 256 + a.val) % 256 = a.val; omega

/-- The neighbourhood sum of the second input. -/
theorem v15_at (r : Fin 10000) (a : Fin 256) :
    val_main_v15 (F := Ideal) x0 x1 (ix2 r a) = ∑ n : Fin 10000, x1 (ix2 r n) * x0 (ix3 1 n a) := by
  rw [val_main_v15_apply]
  refine Finset.sum_congr rfl fun n _ => ?_
  rw [show ridx_main_v15 (ix2 r a) n = ix2 n a from funext fun b => match b with | ⟨0, _⟩ => rfl | ⟨1, _⟩ => rfl,
    show lidx_main_v15 (ix2 r a) n = ix2 r n from funext fun b => match b with | ⟨0, _⟩ => rfl | ⟨1, _⟩ => rfl, v12_at]

/-- The second input mixed with its neighbourhood sum. -/
theorem v16_at (r : Fin 10000) (a : Fin 256) : val_main_v16 (F := Ideal) x0 x1 (ix2 r a) = refMix x0 x1 1 r a := by
  rw [val_main_v16_apply, val_main_v14_apply, val_main_v13_apply, val_main_cst_0_apply, v12_at, v15_at]
  rfl

/-- The mixed second input projected through W1. -/
theorem v17_at (r : Fin 10000) (j : Fin 256) :
    val_main_v17 (F := Ideal) x0 x1 x2 (ix2 r j) = ∑ a : Fin 256, refMix x0 x1 1 r a * x2 (ix2 a j) := by
  rw [val_main_v17_apply]
  refine Finset.sum_congr rfl fun a _ => ?_
  rw [show lidx_main_v17 (ix2 r j) a = ix2 r a from funext fun b => match b with | ⟨0, _⟩ => rfl | ⟨1, _⟩ => rfl,
    show ridx_main_v17 (ix2 r j) a = ix2 a j from funext fun b => match b with | ⟨0, _⟩ => rfl | ⟨1, _⟩ => rfl, v16_at]

/-- The first bias again, along the rows. -/
theorem v19_at (r : Fin 10000) (j : Fin 256) : val_main_v19 (F := Ideal) x3 (ix2 r j) = x3 (ix1 j) := by
  rw [val_main_v19_apply, val_main_v18_apply]
  exact congrArg x3 (funext fun b => match b with | ⟨0, _⟩ => rfl)

/-- The second hidden layer. -/
theorem v21_at (r : Fin 10000) (j : Fin 256) :
    val_main_v21 (F := Ideal) x0 x1 x2 x3 (ix2 r j) = refHidden x0 x1 x2 x3 1 r j := by
  rw [val_main_v21_apply, val_main_v20_apply, val_main_call1_v0_apply, val_main_call1_cst_apply, v17_at, v19_at]
  rfl

/-! ## The two hidden layers side by side, and the second layer -/

/-- The concatenation along the columns: column j is column j % 256 of hidden layer j / 256. -/
theorem v22_at (r : Fin 10000) (j : Fin 512) :
    val_main_v22 (F := Ideal) x0 x1 x2 x3 (ix2 r j) = refCat x0 x1 x2 x3 r j := by
  have hj5 := j.isLt
  unfold val_main_v22 refCat
  by_cases hj : j.val < 256
  · rw [concatenate_pair_apply_left _ _ _ concatenates_S10000x256_S10000x256_S10000x512_d1 (ix2 r j) rfl
      (ix2 r (⟨j.val, hj⟩ : Fin 256)) (fun b => match b with | ⟨0, _⟩ => rfl | ⟨1, _⟩ => rfl), v10_at]
    have hK : colK j = 0 := Fin.ext (show j.val / 256 = 0 by omega)
    have hJ : colJ j = ⟨j.val, hj⟩ := Fin.ext (show j.val % 256 = j.val by omega)
    rw [hK, hJ]
  · have hj' : j.val - 256 < 256 := by omega
    rw [concatenate_pair_apply_right _ _ _ concatenates_S10000x256_S10000x256_S10000x512_d1 (ix2 r j) rfl rfl
      (ix2 r (⟨j.val - 256, hj'⟩ : Fin 256))
      (fun b hb => match b, hb with | ⟨0, _⟩, _ => rfl | ⟨1, _⟩, hb => absurd rfl hb)
      (show j.val - 256 + 256 = j.val by omega), v21_at]
    have hK : colK j = 1 := Fin.ext (show j.val / 256 = 1 by omega)
    have hJ : colJ j = ⟨j.val - 256, hj'⟩ := Fin.ext (show j.val % 256 = j.val - 256 by omega)
    rw [hK, hJ]

/-- The hidden layers mixed with their neighbourhood sum. -/
theorem v26_at (r : Fin 10000) (j : Fin 512) :
    val_main_v26 (F := Ideal) x0 x1 x2 x3 (ix2 r j)
      = oneWord * refCat x0 x1 x2 x3 r j + ∑ n : Fin 10000, x1 (ix2 r n) * refCat x0 x1 x2 x3 n j := by
  rw [val_main_v26_apply, val_main_v24_apply, val_main_v23_apply, val_main_cst_1_apply, val_main_v25_apply, v22_at]
  show oneWord * refCat x0 x1 x2 x3 r j
      + (∑ k : Fin 10000, x1 (lidx_main_v25 (ix2 r j) k) * val_main_v22 (F := Ideal) x0 x1 x2 x3 (ridx_main_v25 (ix2 r j) k)) = _
  congr 1
  refine Finset.sum_congr rfl fun n _ => ?_
  rw [show ridx_main_v25 (ix2 r j) n = ix2 n j from funext fun b => match b with | ⟨0, _⟩ => rfl | ⟨1, _⟩ => rfl,
    show lidx_main_v25 (ix2 r j) n = ix2 r n from funext fun b => match b with | ⟨0, _⟩ => rfl | ⟨1, _⟩ => rfl, v22_at]

/-! ## The result -/

/-- The reference's last stage at an index is the reference's arrangement at that entry. -/
theorem val_eq_refResult (i : S10000x40.Idx) :
    Cert.ReferenceIdeal.Read.val_main_v30 (F := Ideal) x0 x1 x2 x3 x4 x5 i
      = Cert.Gin.refResult x0 x1 x2 x3 x4 x5 (i 0) (i 1) := by
  obtain ⟨r, o, rfl⟩ : ∃ (r : Fin 10000) (o : Fin 40), i = ix2 r o := ⟨i 0, i 1, eq_ix2 i⟩
  show _ = refResult x0 x1 x2 x3 x4 x5 r o
  rw [val_main_v30_apply, val_main_v27_apply, val_main_v29_apply, val_main_v28_apply]
  show (∑ k : Fin 512, val_main_v26 (F := Ideal) x0 x1 x2 x3 (lidx_main_v27 (ix2 r o) k) * x4 (ridx_main_v27 (ix2 r o) k))
      + x5 (idx_main_v28 (idx_main_v29 (ix2 r o))) = _
  unfold refResult
  congr 1
  · refine Finset.sum_congr rfl fun j _ => ?_
    rw [show lidx_main_v27 (ix2 r o) j = ix2 r j from funext fun b => match b with | ⟨0, _⟩ => rfl | ⟨1, _⟩ => rfl,
      show ridx_main_v27 (ix2 r o) j = ix2 j o from funext fun b => match b with | ⟨0, _⟩ => rfl | ⟨1, _⟩ => rfl, v26_at]
  · exact congrArg x5 (funext fun b => match b with | ⟨0, _⟩ => rfl)

/-- With every entry of every argument finite, the reference's last stage is the staged result. -/
theorem val_eq_result (hx0 : ∀ i, ∃ t : ℝ, x0 i = (t : EReal)) (hx1 : ∀ i, ∃ t : ℝ, x1 i = (t : EReal))
    (hx2 : ∀ i, ∃ t : ℝ, x2 i = (t : EReal)) (hx3 : ∀ i, ∃ t : ℝ, x3 i = (t : EReal))
    (hx4 : ∀ i, ∃ t : ℝ, x4 i = (t : EReal)) (hx5 : ∀ i, ∃ t : ℝ, x5 i = (t : EReal)) :
    Cert.ReferenceIdeal.Read.val_main_v30 (F := Ideal) x0 x1 x2 x3 x4 x5 = Cert.Gin.resultArr x0 x1 x2 x3 x4 x5 := by
  funext i
  rw [val_eq_refResult]
  exact refResult_eq_result x0 x1 x2 x3 x4 x5 hx0 hx1 hx2 hx3 hx4 hx5 (i 0) (i 1)

end Cert.Gin.RefBridge

end
-- ==== Proof.Finite.lean ====
import proofs.«161026_g21131239096597_cont_8to1_6_7_alg».proof.Pre_finite_inputs
import Idealize.ShloMosaic.Lib.ReduceAll
import Idealize.ShloMosaic.Lib.ValueIdx

/-
  From the precondition to "every entry of every argument is a real".

  The precondition takes, for each of the six arguments, the conjunction over all entries of |x| < +∞ (the bound being
  the float pattern of +∞), and conjoins the six. An extended real with max x (-x) < ⊤ is neither ⊤ nor ⊥, hence the
  image of a real.
-/

noncomputable section

namespace Cert.Gin.Finite

open Idealize.ShloMosaic Cert.Pre_finite_inputs

/-- The shape with no axes has one index. -/
instance : Subsingleton S_.Idx := ⟨fun a b => funext fun d => d.elim0⟩

/-- An extended real whose absolute value lies strictly below the pattern of +∞ is a real. -/
theorem real_of_abs_lt (x : EReal)
    (h : Ideal.cmp .olt (max x (-x)) (Ideal.ofBits .f32 0x7F800000#32) = 1#1) : ∃ t : ℝ, x = (t : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- One conjunct of the precondition: if the conjunction over all entries of |x| < +∞ is true, every entry is a real. -/
theorem all_real {s : Shape} (hb : S_.BroadcastsInDim s (![] : Fin 0 → Fin s.rank)) {axes : List (Fin s.rank)}
    (hr : s.ReducesTo axes S_) (hu : 0 < S_.numel) (x : FVec Ideal s .f32)
    (e : Host.reduce IntOp.andi
        (cmpf .olt (Host.absf x) (broadcastInDim s ![] hb (constant S_ .f32 0x7F800000#32)))
        (constantI S_ 1 1#1) hr hu ValueIdx.ix0 = 1#1) (i : s.Idx) : ∃ t : ℝ, x i = (t : EReal) :=
  real_of_abs_lt (x i) (Host.reduce_andi_all _ _ hr hu _ e i)

variable [Facts]

/-- The precondition gives, for each of the six arguments, that every entry is a real. -/
theorem finite_of_pre (x0 : FVec Ideal S2x10000x256 .f32) (x1 : FVec Ideal S10000x10000 .f32)
    (x2 : FVec Ideal S256x256 .f32) (x3 : FVec Ideal S256 .f32) (x4 : FVec Ideal S512x40 .f32)
    (x5 : FVec Ideal S40 .f32)
    (h : Cert.Pre_finite_inputs.fn (F := Ideal) x0 x1 x2 x3 x4 x5 = fun _ => 1#1) :
    (∀ i, ∃ t : ℝ, x0 i = (t : EReal)) ∧ (∀ i, ∃ t : ℝ, x1 i = (t : EReal)) ∧ (∀ i, ∃ t : ℝ, x2 i = (t : EReal))
      ∧ (∀ i, ∃ t : ℝ, x3 i = (t : EReal)) ∧ (∀ i, ∃ t : ℝ, x4 i = (t : EReal)) ∧ (∀ i, ∃ t : ℝ, x5 i = (t : EReal)) := by
  have h0 := congrFun h ValueIdx.ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ x0 e0, all_real _ _ _ x1 e1, all_real _ _ _ x2 e2, all_real _ _ _ x3 e3,
    all_real _ _ _ x4 e4, all_real _ _ _ x5 e5⟩

end Cert.Gin.Finite

end
-- ==== Proof.lean ====
/-
  A two-layer hypergraph convolution, computed by a kernel in a re-associated order, against its plain reference, over
  the extended reals.

  With x of shape 2 x N x 256, hg of shape N x N, W1, b1, W2, b2 (N = 10000), the reference computes, for each of the two
  inputs x_k, the hidden layer h_k = max((x_k + hg·x_k)·W1 + b1, 0), puts the two side by side as c (N x 512), and
  returns (c + hg·c)·W2 + b2. The kernel does the same in three regions: V = x_k·W1 side by side; U = max(hg·V + V + b1, 0)·W2;
  and hg·U + U + b2. The two agree because a matrix product distributes over a sum and re-associates,
  (x + hg·x)·W = x·W + hg·(x·W), which on the extended reals needs every entry finite: the precondition says every input
  entry is, so every intermediate is a real number. Changes of float format are the identity here, and the only
  literals are the zero of the maximum and the reference's factor one.

  The frames: each kernel program is a host stretch (the biases laid out as rows) followed by three kernel regions;
  each region's grid points run the body on blocks fetched from the arrays and write the output blocks back, and between
  regions every buffer stands at a known valuation. Two regions read one array through two windows; that array is held
  at the two halves of the full share inside the region and whole outside it. The reference is a straight line of host
  operations.
-/
import proofs.«161026_g21131239096597_cont_8to1_6_7_alg».proof.Defs
import proofs.«161026_g21131239096597_cont_8to1_6_7_alg».proof.Proof.Gen.Kernel
import proofs.«161026_g21131239096597_cont_8to1_6_7_alg».proof.Proof.Gen.KernelIdeal
import proofs.«161026_g21131239096597_cont_8to1_6_7_alg».proof.Proof.Gen.ReferenceIdeal
import proofs.«161026_g21131239096597_cont_8to1_6_7_alg».proof.Proof.Gen.Pre_finite_inputs
import proofs.«161026_g21131239096597_cont_8to1_6_7_alg».proof.Proof.KRun
import proofs.«161026_g21131239096597_cont_8to1_6_7_alg».proof.Proof.KiRun
import proofs.«161026_g21131239096597_cont_8to1_6_7_alg».proof.Proof.KiValue
import proofs.«161026_g21131239096597_cont_8to1_6_7_alg».proof.Proof.RefBridge
import proofs.«161026_g21131239096597_cont_8to1_6_7_alg».proof.Proof.Finite
import Idealize.ShloMosaic.Adequacy
import Idealize.ShloMosaic.Init

noncomputable section

namespace Cert.Proof

open Idealize.ShloMosaic Idealize.SL.Sem

/-- The word-level kernel runs to the end, faults nowhere, and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals, from memories that agree on the six arguments, both programs end with the same result:
    the kernel's three regions compute V = x·W1 side by side, U = max(hg·V + V + b1, 0)·W2 and hg·U + U + b2; the reference
    computes max((x + hg·x)·W1 + b1, 0) side by side and then (c + hg·c)·W2 + b2. On finite entries, which the precondition
    gives, (x + hg·x)·W = x·W + hg·(x·W): a matrix product distributes over the sum and re-associates. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.resO m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨h0, h1, h2, h3, h4, h5⟩ := Cert.Gin.Finite.finite_of_pre _ _ _ _ _ _ (hpre c)
  rw [Cert.ReferenceIdeal.Read.val_main_v30_eq, a0, a1, a2, a3, a4, a5]
  exact (Cert.Gin.RefBridge.val_eq_result _ _ _ _ _ _ h0 h1 h2 h3 h4 h5).trans (Cert.KernelIdeal.Value.resO_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
